-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256x128 .f32) (main_arg10 : FVec F S256x128 .f32) (main_arg11 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x256 .f32) (main_arg7 : FVec F S256x256 .f32) (main_arg8 : FVec F S256 .f32) (main_arg9 : FVec F S256x128 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x256 .f32) (main_arg4 : FVec F S128x256 .f32) (main_arg5 : FVec F S256 .f32) (main_arg6 : FVec F S256x256 .f32) (main_arg7 : FVec F S256x256 .f32) (main_arg8 : FVec F S256 .f32) (main_arg9 : FVec F S256x128 .f32) (main_arg10 : FVec F S256x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 132
  | .vmem => 27
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x256, .f32⟩
  | 4 => ⟨S128x256, .f32⟩
  | 5 => ⟨S256, .f32⟩
  | 6 => ⟨S256x256, .f32⟩
  | 7 => ⟨S256x256, .f32⟩
  | 8 => ⟨S256, .f32⟩
  | 9 => ⟨S256x128, .f32⟩
  | 10 => ⟨S256x128, .f32⟩
  | 11 => ⟨S128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S1, .i32⟩
  | 21 => ⟨S_, .i32⟩
  | 22 => ⟨S800000x1, .i32⟩
  | 23 => ⟨S800000x1, .i1⟩
  | 24 => ⟨S1x1, .i32⟩
  | 25 => ⟨S800000x1, .i32⟩
  | 26 => ⟨S800000x1, .i1⟩
  | 27 => ⟨S800000x1, .i1⟩
  | 28 => ⟨S_, .i1⟩
  | 29 => ⟨S800000, .i1⟩
  | 30 => ⟨S800000x128, .f32⟩
  | 31 => ⟨S800000x128, .i1⟩
  | 32 => ⟨S_, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S_, .f32⟩
  | 40 => ⟨S800000x1, .f32⟩
  | 41 => ⟨S_, .f32⟩
  | 42 => ⟨S50000x1, .f32⟩
  | 43 => ⟨S800000x1, .i32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S1x256, .f32⟩
  | 51 => ⟨S50000x256, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S1, .i32⟩
  | 61 => ⟨S_, .i32⟩
  | 62 => ⟨S800000x1, .i32⟩
  | 63 => ⟨S800000x1, .i1⟩
  | 64 => ⟨S1x1, .i32⟩
  | 65 => ⟨S800000x1, .i32⟩
  | 66 => ⟨S800000x1, .i1⟩
  | 67 => ⟨S800000x1, .i1⟩
  | 68 => ⟨S_, .i1⟩
  | 69 => ⟨S800000, .i1⟩
  | 70 => ⟨S800000x256, .f32⟩
  | 71 => ⟨S800000x256, .i1⟩
  | 72 => ⟨S_, .f32⟩
  | 73 => ⟨S800000x256, .f32⟩
  | 74 => ⟨S800000x256, .f32⟩
  | 75 => ⟨S_, .f32⟩
  | 76 => ⟨S50000x256, .f32⟩
  | 77 => ⟨S800000x1, .i32⟩
  | 78 => ⟨S50000x256, .f32⟩
  | 79 => ⟨S_, .f32⟩
  | 80 => ⟨S800000x1, .f32⟩
  | 81 => ⟨S_, .f32⟩
  | 82 => ⟨S50000x1, .f32⟩
  | 83 => ⟨S800000x1, .i32⟩
  | 84 => ⟨S50000x1, .f32⟩
  | 85 => ⟨S_, .f32⟩
  | 86 => ⟨S50000x1, .f32⟩
  | 87 => ⟨S50000x1, .f32⟩
  | 88 => ⟨S50000x256, .f32⟩
  | 89 => ⟨S50000x256, .f32⟩
  | 90 => ⟨S1x256, .f32⟩
  | 91 => ⟨S50000x256, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S1, .i32⟩
  | 101 => ⟨S_, .i32⟩
  | 102 => ⟨S800000x1, .i32⟩
  | 103 => ⟨S800000x1, .i1⟩
  | 104 => ⟨S1x1, .i32⟩
  | 105 => ⟨S800000x1, .i32⟩
  | 106 => ⟨S800000x1, .i1⟩
  | 107 => ⟨S800000x1, .i1⟩
  | 108 => ⟨S_, .i1⟩
  | 109 => ⟨S800000, .i1⟩
  | 110 => ⟨S800000x256, .f32⟩
  | 111 => ⟨S800000x256, .i1⟩
  | 112 => ⟨S_, .f32⟩
  | 113 => ⟨S800000x256, .f32⟩
  | 114 => ⟨S800000x256, .f32⟩
  | 115 => ⟨S_, .f32⟩
  | 116 => ⟨S50000x256, .f32⟩
  | 117 => ⟨S800000x1, .i32⟩
  | 118 => ⟨S50000x256, .f32⟩
  | 119 => ⟨S_, .f32⟩
  | 120 => ⟨S800000x1, .f32⟩
  | 121 => ⟨S_, .f32⟩
  | 122 => ⟨S50000x1, .f32⟩
  | 123 => ⟨S800000x1, .i32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x256, .f32⟩
  | 1 => ⟨S50000x256, .f32⟩
  | 2 => ⟨S1x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x128, .f32⟩
  | .local _ .vmem, ⟨23, _⟩ => ⟨S256x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_cst_0 : Ref sig .tc := ⟨.hbm, 39, rfl⟩
abbrev main_v4 : Ref sig .tc := ⟨.hbm, 40, rfl⟩
abbrev main_cst_1 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_2 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v14 : Ref sig .tc := ⟨.hbm, 74, rfl⟩
abbrev main_cst_3 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_cst_4 : Ref sig .tc := ⟨.hbm, 79, rfl⟩
abbrev main_v18 : Ref sig .tc := ⟨.hbm, 80, rfl⟩
abbrev main_cst_5 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_cst_6 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v28 : Ref sig .tc := ⟨.hbm, 114, rfl⟩
abbrev main_cst_7 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_cst_8 : Ref sig .tc := ⟨.hbm, 119, rfl⟩
abbrev main_v32 : Ref sig .tc := ⟨.hbm, 120, rfl⟩
abbrev main_cst_9 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_cst_10 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x256, .f32⟩
  | 4 => ⟨S128x256, .f32⟩
  | 5 => ⟨S256, .f32⟩
  | 6 => ⟨S256x256, .f32⟩
  | 7 => ⟨S256x256, .f32⟩
  | 8 => ⟨S256, .f32⟩
  | 9 => ⟨S256x128, .f32⟩
  | 10 => ⟨S256x128, .f32⟩
  | 11 => ⟨S128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S1, .i32⟩
  | 21 => ⟨S_, .i32⟩
  | 22 => ⟨S800000x1, .i32⟩
  | 23 => ⟨S800000x1, .i1⟩
  | 24 => ⟨S1x1, .i32⟩
  | 25 => ⟨S800000x1, .i32⟩
  | 26 => ⟨S800000x1, .i1⟩
  | 27 => ⟨S800000x1, .i1⟩
  | 28 => ⟨S_, .i1⟩
  | 29 => ⟨S800000, .i1⟩
  | 30 => ⟨S800000x128, .f32⟩
  | 31 => ⟨S800000x128, .i1⟩
  | 32 => ⟨S_, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S_, .f32⟩
  | 40 => ⟨S800000x1, .f32⟩
  | 41 => ⟨S_, .f32⟩
  | 42 => ⟨S50000x1, .f32⟩
  | 43 => ⟨S800000x1, .i32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S1, .i32⟩
  | 68 => ⟨S_, .i32⟩
  | 69 => ⟨S800000x1, .i32⟩
  | 70 => ⟨S800000x1, .i1⟩
  | 71 => ⟨S1x1, .i32⟩
  | 72 => ⟨S800000x1, .i32⟩
  | 73 => ⟨S800000x1, .i1⟩
  | 74 => ⟨S800000x1, .i1⟩
  | 75 => ⟨S_, .i1⟩
  | 76 => ⟨S800000, .i1⟩
  | 77 => ⟨S800000x256, .f32⟩
  | 78 => ⟨S800000x256, .i1⟩
  | 79 => ⟨S_, .f32⟩
  | 80 => ⟨S800000x256, .f32⟩
  | 81 => ⟨S800000x256, .f32⟩
  | 82 => ⟨S_, .f32⟩
  | 83 => ⟨S50000x256, .f32⟩
  | 84 => ⟨S800000x1, .i32⟩
  | 85 => ⟨S50000x256, .f32⟩
  | 86 => ⟨S_, .f32⟩
  | 87 => ⟨S800000x1, .f32⟩
  | 88 => ⟨S_, .f32⟩
  | 89 => ⟨S50000x1, .f32⟩
  | 90 => ⟨S800000x1, .i32⟩
  | 91 => ⟨S50000x1, .f32⟩
  | 92 => ⟨S_, .f32⟩
  | 93 => ⟨S50000x1, .f32⟩
  | 94 => ⟨S50000x1, .f32⟩
  | 95 => ⟨S50000x256, .f32⟩
  | 96 => ⟨S50000x256, .f32⟩
  | 97 => ⟨S50000x256, .f32⟩
  | 98 => ⟨S50000x256, .f32⟩
  | 99 => ⟨S50000x256, .f32⟩
  | 100 => ⟨S1x256, .f32⟩
  | 101 => ⟨S50000x256, .f32⟩
  | 102 => ⟨S50000x256, .f32⟩
  | 103 => ⟨S_, .f32⟩
  | 104 => ⟨S50000x256, .f32⟩
  | 105 => ⟨S50000x256, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S1, .i32⟩
  | 115 => ⟨S_, .i32⟩
  | 116 => ⟨S800000x1, .i32⟩
  | 117 => ⟨S800000x1, .i1⟩
  | 118 => ⟨S1x1, .i32⟩
  | 119 => ⟨S800000x1, .i32⟩
  | 120 => ⟨S800000x1, .i1⟩
  | 121 => ⟨S800000x1, .i1⟩
  | 122 => ⟨S_, .i1⟩
  | 123 => ⟨S800000, .i1⟩
  | 124 => ⟨S800000x256, .f32⟩
  | 125 => ⟨S800000x256, .i1⟩
  | 126 => ⟨S_, .f32⟩
  | 127 => ⟨S800000x256, .f32⟩
  | _ => ⟨S50000x128, .f32⟩

abbrev hbmTy0_1 (i : Nat) : BufTy := match i % 128 with
  | 0 => ⟨S800000x256, .f32⟩
  | 1 => ⟨S_, .f32⟩
  | 2 => ⟨S50000x256, .f32⟩
  | 3 => ⟨S800000x1, .i32⟩
  | 4 => ⟨S50000x256, .f32⟩
  | 5 => ⟨S_, .f32⟩
  | 6 => ⟨S800000x1, .f32⟩
  | 7 => ⟨S_, .f32⟩
  | 8 => ⟨S50000x1, .f32⟩
  | 9 => ⟨S800000x1, .i32⟩
  | 10 => ⟨S50000x1, .f32⟩
  | 11 => ⟨S_, .f32⟩
  | 12 => ⟨S50000x1, .f32⟩
  | 13 => ⟨S50000x1, .f32⟩
  | 14 => ⟨S50000x256, .f32⟩
  | 15 => ⟨S50000x256, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_cst_0 : Ref sig .tc := ⟨.hbm, 39, rfl⟩
abbrev main_v4 : Ref sig .tc := ⟨.hbm, 40, rfl⟩
abbrev main_cst_1 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_2 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call1_cst : Ref sig .tc := ⟨.hbm, 56, rfl⟩
abbrev main_call1_v0 : Ref sig .tc := ⟨.hbm, 57, rfl⟩
abbrev main_v18 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v19 : Ref sig .tc := ⟨.hbm, 81, rfl⟩
abbrev main_cst_3 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_cst_4 : Ref sig .tc := ⟨.hbm, 86, rfl⟩
abbrev main_v23 : Ref sig .tc := ⟨.hbm, 87, rfl⟩
abbrev main_cst_5 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_6 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_call3_cst : Ref sig .tc := ⟨.hbm, 103, rfl⟩
abbrev main_call3_v0 : Ref sig .tc := ⟨.hbm, 104, rfl⟩
abbrev main_v37 : Ref sig .tc := ⟨.hbm, 105, rfl⟩
abbrev main_call4_c : Ref sig .tc := ⟨.hbm, 106, rfl⟩
abbrev main_call4_v0 : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_c_1 : Ref sig .tc := ⟨.hbm, 114, rfl⟩
abbrev main_call4_c_2 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_3 : Ref sig .tc := ⟨.hbm, 122, rfl⟩
abbrev main_call4_v12 : Ref sig .tc := ⟨.hbm, 123, rfl⟩
abbrev main_call4_v13 : Ref sig .tc := ⟨.hbm, 124, rfl⟩
abbrev main_call4_v14 : Ref sig .tc := ⟨.hbm, 125, rfl⟩
abbrev main_call4_cst : Ref sig .tc := ⟨.hbm, 126, rfl⟩
abbrev main_call4_v15 : Ref sig .tc := ⟨.hbm, 127, rfl⟩
abbrev main_v38 : Ref sig .tc := ⟨.hbm, 128, rfl⟩
abbrev main_cst_7 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_cst_8 : Ref sig .tc := ⟨.hbm, 133, rfl⟩
abbrev main_v42 : Ref sig .tc := ⟨.hbm, 134, rfl⟩
abbrev main_cst_9 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_cst_10 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The network both programs compute, as ONE function of the twelve argument arrays.

  A three-layer mean-aggregation graph network over 50000 nodes and 800000 edges. One layer takes the node
  features `h` to `h · W_self + mean(h) · W_neigh + b`, where `mean(h)` at node `v` is the sum of `h` at the
  sources of the edges into `v` divided by `max(deg v, 1)`; the first two layers are followed by `max(·, 0)`.
  The edge stage (`gatherRows`, `degree`, `meanAgg`) is never opened by the proof: both programs apply the same
  operations to it, so it is carried as one function. A layer's dense part (`dense0` … `dense2`) is stated in
  the host's operations: two matrix products, their sum, the bias row broadcast over the nodes.
-/
import proofs.«142392_j26560077759064_1_alg».proof.ReferenceIdeal
import Idealize.ShloMosaic.PureOps.Ideal

noncomputable section

namespace Cert.Sage

open Idealize.ShloMosaic Cert.ReferenceIdeal
open Cert.ReferenceIdeal.Facts₀ Cert.ReferenceIdeal.Facts

variable {F : FTy → Type} [FloatOps F] [Cert.ReferenceIdeal.Facts]

/-! ## The edge stage -/

/-- An edge's source node as a row index: a negative index is taken from the end (50000 is added once). -/
def srcRow (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Whether that row index lies in 0 … 49999. -/
def srcInRange (src : IVec S800000 32) : IVec S800000 1 :=
  Host.reduce IntOp.andi
    (andi (cmpi .sge (srcRow src) (broadcastInDim S800000x1 ![] bcast_S_S800000x1 (constantI S_ 32 0#32)))
      (cmpi .sle (srcRow src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of a 128-column array at the edges' sources; an out-of-range source reads the fill word. -/
def gatherRows128 (h : FVec F S50000x128 .f32) (src : IVec S800000 32) : FVec F S800000x128 .f32 :=
  select (broadcastInDim S800000x128 ![0] bcast_S800000_S800000x128_0 (srcInRange src))
    (Host.gather gather_S50000x128_S800000x1_S800000x128_1_0_n_n_0_1_1128 h (srcRow src))
    (broadcastInDim S800000x128 ![] bcast_S_S800000x128 (constant S_ .f32 0x7FC00000#32))

/-- The same of a 256-column array. -/
def gatherRows256 (h : FVec F S50000x256 .f32) (src : IVec S800000 32) : FVec F S800000x256 .f32 :=
  select (broadcastInDim S800000x256 ![0] bcast_S800000_S800000x256_0 (srcInRange src))
    (Host.gather gather_S50000x256_S800000x1_S800000x256_1_0_n_n_0_1_1256 h (srcRow src))
    (broadcastInDim S800000x256 ![] bcast_S_S800000x256 (constant S_ .f32 0x7FC00000#32))

/-- A node's in-degree, never below one: ones summed over the edges into it, then `max(·, 1)`. -/
def degree (dst : IVec S800000 32) : FVec F S50000x1 .f32 :=
  maximumf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 dst)
      (broadcastInDim S800000x1 ![] bcast_S_S800000x1 (constant S_ .f32 0x3F800000#32)))
    (broadcastInDim S50000x1 ![] bcast_S_S50000x1 (constant S_ .f32 0x3F800000#32))

/-- The mean of a 128-column array over each node's incoming edges. -/
def meanAgg128 (h : FVec F S50000x128 .f32) (src dst : IVec S800000 32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (gatherRows128 h src))
    (broadcastInDim S50000x128 ![0, 1] bcast_S50000x1_S50000x128_0_1 (degree dst))

/-- The mean of a 256-column array over each node's incoming edges. -/
def meanAgg256 (h : FVec F S50000x256 .f32) (src dst : IVec S800000 32) : FVec F S50000x256 .f32 :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (gatherRows256 h src))
    (broadcastInDim S50000x256 ![0, 1] bcast_S50000x1_S50000x256_0_1 (degree dst))

/-! ## A layer's dense part -/

/-- `h · W_self + n · W_neigh + b`, 128 columns to 256. -/
def dense0 (h n : FVec F S50000x128 .f32) (ws wn : FVec F S128x256 .f32) (b : FVec F S256 .f32) : FVec F S50000x256 .f32 :=
  addf
    (addf (Host.dotGeneral dot_S50000x128_S128x256_S50000x256_1_0_0_1_n_n none h ws)
      (Host.dotGeneral dot_S50000x128_S128x256_S50000x256_1_0_0_1_n_n none n wn))
    (broadcastInDim S50000x256 ![0, 1] bcast_S1x256_S50000x256_0_1 (broadcastInDim S1x256 ![1] bcast_S256_S1x256_1 b))

/-- `h · W_self + n · W_neigh + b`, 256 columns to 256. -/
def dense1 (h n : FVec F S50000x256 .f32) (ws wn : FVec F S256x256 .f32) (b : FVec F S256 .f32) : FVec F S50000x256 .f32 :=
  addf
    (addf (Host.dotGeneral dot_S50000x256_S256x256_S50000x256_1_0_0_1_n_n none h ws)
      (Host.dotGeneral dot_S50000x256_S256x256_S50000x256_1_0_0_1_n_n none n wn))
    (broadcastInDim S50000x256 ![0, 1] bcast_S1x256_S50000x256_0_1 (broadcastInDim S1x256 ![1] bcast_S256_S1x256_1 b))

/-- `h · W_self + n · W_neigh + b`, 256 columns to 128. -/
def dense2 (h n : FVec F S50000x256 .f32) (ws wn : FVec F S256x128 .f32) (b : FVec F S128 .f32) : FVec F S50000x128 .f32 :=
  addf
    (addf (Host.dotGeneral dot_S50000x256_S256x128_S50000x128_1_0_0_1_n_n none h ws)
      (Host.dotGeneral dot_S50000x256_S256x128_S50000x128_1_0_0_1_n_n none n wn))
    (broadcastInDim S50000x128 ![0, 1] bcast_S1x128_S50000x128_0_1 (broadcastInDim S1x128 ![1] bcast_S128_S1x128_1 b))

/-- `max(·, 0)` of a 256-column array. -/
def relu256 (x : FVec F S50000x256 .f32) : FVec F S50000x256 .f32 :=
  maximumf x (broadcastInDim S50000x256 ![] bcast_S_S50000x256 (constant S_ .f32 0x00000000#32))

/-! ## The three layers -/

/-- The first layer's output. -/
def hidden1 (x : FVec F S50000x128 .f32) (src dst : IVec S800000 32) (ws wn : FVec F S128x256 .f32) (b : FVec F S256 .f32) :
    FVec F S50000x256 .f32 :=
  relu256 (dense0 x (meanAgg128 x src dst) ws wn b)

/-- A middle layer: from 256 columns to 256. -/
def hidden2 (h : FVec F S50000x256 .f32) (src dst : IVec S800000 32) (ws wn : FVec F S256x256 .f32) (b : FVec F S256 .f32) :
    FVec F S50000x256 .f32 :=
  relu256 (dense1 h (meanAgg256 h src dst) ws wn b)

/-- The last layer: no `max`. -/
def output (h : FVec F S50000x256 .f32) (src dst : IVec S800000 32) (ws wn : FVec F S256x128 .f32) (b : FVec F S128 .f32) :
    FVec F S50000x128 .f32 :=
  dense2 h (meanAgg256 h src dst) ws wn b

/-- The whole network. -/
def net (x : FVec F S50000x128 .f32) (src dst : IVec S800000 32)
    (ws0 wn0 : FVec F S128x256 .f32) (b0 : FVec F S256 .f32)
    (ws1 wn1 : FVec F S256x256 .f32) (b1 : FVec F S256 .f32)
    (ws2 wn2 : FVec F S256x128 .f32) (b2 : FVec F S128 .f32) : FVec F S50000x128 .f32 :=
  output (hidden2 (hidden1 x src dst ws0 wn0 b0) src dst ws1 wn1 b1) src dst ws2 wn2 b2

end Cert.Sage

end
-- ==== Proof.KerRun.lean ====
/-
  The kernel program's run with its RESULT named.

  @main is three pipelined regions among stretches of host operations. The buffer contents at each boundary are a fold
  from the launch memory (`Gen.W0` … `Gen.W9`); after the last region every unscoped buffer of a core holds the last
  boundary's contents `Gen.W9`. So every weakly fair execution terminates with the result array at `Gen.W9` read at
  the result buffer, and with the twelve argument arrays as launched.
-/
import proofs.«142392_j26560077759064_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched: the final thread state holds every unscoped buffer at
    `Gen.W9`, and the result buffer is one of them. -/
theorem run_named : θ_run defs (onTc (τ := τ) (main (F := F))) ⟨m, fun _ => 0, ρ⟩ (fun r => ∀ c : Dev nD,
      r.2.mem ((c.tc : Thread nD τ).loc main_v41) = W9 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v41 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.RunValue

end
-- ==== Proof.DenseAt.lean ====
/-
  A layer's dense part and a block's payload, read at one index, as the same sums.

  At the ideal values a float is an extended real, every operation is the exact one and a change of format is the
  identity. A layer's dense part `h · W_self + n · W_neigh + b` at row `r`, column `q` is then
  `(∑ k, h r k * W_self k q + ∑ k, n r k * W_neigh k q) + b q`; a block's payload at row `p` of the block, column `q` is
  the same expression of the block's rows, the two weight arrays and the bias row (followed, in the first two
  layers, by `max(·, 0)`). Each product is a contraction over ONE axis: its sum over the contraction index is
  re-indexed through the bijection with that axis's coordinates.
-/
import proofs.«142392_j26560077759064_1_alg».proof.Proof.Spec
import proofs.«142392_j26560077759064_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Sage

open Idealize.ShloMosaic Idealize.ShloMosaic.ValueIdx

/-! ## The reference's side: the host's products and bias rows at an index -/

section Reference
open Cert.ReferenceIdeal Cert.ReferenceIdeal.Facts₀ Cert.ReferenceIdeal.Facts
variable [Cert.ReferenceIdeal.Facts]

/-- The left operand's row coordinate does not depend on the contraction position. -/
theorem refDot0_lhs0 (i : S50000x256.Idx) (c : dot_S50000x128_S128x256_S50000x256_1_0_0_1_n_n.contr.Idx) : (dot_S50000x128_S128x256_S50000x256_1_0_0_1_n_n.lhsIdx i c 0).val = (i 0).val := by
  unfold DotDims.lhsIdx
  rw [dif_neg (show ¬(0 : Fin S50000x128.rank) ∈ dot_S50000x128_S128x256_S50000x256_1_0_0_1_n_n.lhsBatch from List.not_mem_nil),
    dif_pos (show (0 : Fin S50000x128.rank) ∈ dot_S50000x128_S128x256_S50000x256_1_0_0_1_n_n.lhsNonContracting from List.mem_singleton.mpr rfl)]
  rfl
/-- The left operand's column coordinate is the contraction position. -/
theorem refDot0_lhs1 (i : S50000x256.Idx) (c : dot_S50000x128_S128x256_S50000x256_1_0_0_1_n_n.contr.Idx) : (dot_S50000x128_S128x256_S50000x256_1_0_0_1_n_n.lhsIdx i c 1).val = (c ⟨0, Nat.one_pos⟩).val :=
  dot_S50000x128_S128x256_S50000x256_1_0_0_1_n_n.lhsIdx_val_of_single rfl i c
/-- The right operand's row coordinate is the contraction position. -/
theorem refDot0_rhs0 (i : S50000x256.Idx) (c : dot_S50000x128_S128x256_S50000x256_1_0_0_1_n_n.contr.Idx) : (dot_S50000x128_S128x256_S50000x256_1_0_0_1_n_n.rhsIdx i c 0).val = (c ⟨0, Nat.one_pos⟩).val :=
  dot_S50000x128_S128x256_S50000x256_1_0_0_1_n_n.rhsIdx_val_of_single rfl i c
/-- The right operand's column coordinate does not depend on the contraction position. -/
theorem refDot0_rhs1 (i : S50000x256.Idx) (c : dot_S50000x128_S128x256_S50000x256_1_0_0_1_n_n.contr.Idx) : (dot_S50000x128_S128x256_S50000x256_1_0_0_1_n_n.rhsIdx i c 1).val = (i 1).val := by
  unfold DotDims.rhsIdx
  rw [dif_neg (show ¬(1 : Fin S128x256.rank) ∈ dot_S50000x128_S128x256_S50000x256_1_0_0_1_n_n.rhsBatch from List.not_mem_nil),
    dif_pos (show (1 : Fin S128x256.rank) ∈ dot_S50000x128_S128x256_S50000x256_1_0_0_1_n_n.rhsNonContracting from List.mem_singleton.mpr rfl)]
  rfl

/-- The contraction of a 50000 × 128 array with a 128 × 256 one, read at (r, q): the sum over the 128 shared coordinates. -/
theorem refDot0_sum {φ₁ φ₂ : FTy} (x : FVec Ideal S50000x128 φ₁) (w : FVec Ideal S128x256 φ₂) (r : Fin 50000) (q : Fin 256) :
    (∑ c : dot_S50000x128_S128x256_S50000x256_1_0_0_1_n_n.contr.Idx, x (dot_S50000x128_S128x256_S50000x256_1_0_0_1_n_n.lhsIdx (ix2 r q) c) * w (dot_S50000x128_S128x256_S50000x256_1_0_0_1_n_n.rhsIdx (ix2 r q) c))
      = ∑ k : Fin 128, x (ix2 r k) * w (ix2 k q) := by
  rw [← Equiv.sum_comp (contrEquiv1 dot_S50000x128_S128x256_S50000x256_1_0_0_1_n_n 128 rfl rfl).symm]
  refine Finset.sum_congr rfl fun k _ => ?_
  have hk := contrEquiv1_symm_val dot_S50000x128_S128x256_S50000x256_1_0_0_1_n_n 128 rfl rfl k
  have el : dot_S50000x128_S128x256_S50000x256_1_0_0_1_n_n.lhsIdx (ix2 r q) ((contrEquiv1 dot_S50000x128_S128x256_S50000x256_1_0_0_1_n_n 128 rfl rfl).symm k) = ix2 r k := funext fun a => Fin.ext (by
    match a with
    | ⟨0, _⟩ => exact refDot0_lhs0 _ _
    | ⟨1, _⟩ => exact (refDot0_lhs1 _ _).trans hk)
  have er : dot_S50000x128_S128x256_S50000x256_1_0_0_1_n_n.rhsIdx (ix2 r q) ((contrEquiv1 dot_S50000x128_S128x256_S50000x256_1_0_0_1_n_n 128 rfl rfl).symm k) = ix2 k q := funext fun a => Fin.ext (by
    match a with
    | ⟨0, _⟩ => exact (refDot0_rhs0 _ _).trans hk
    | ⟨1, _⟩ => exact refDot0_rhs1 _ _)
  rw [el, er]

/-- The host's product of a 50000 × 128 array with a 128 × 256 one, read at (r, q). -/
theorem refDot0_apply (x : FVec Ideal S50000x128 .f32) (w : FVec Ideal S128x256 .f32) (r : Fin 50000) (q : Fin 256) :
    Host.dotGeneral (F := Ideal) dot_S50000x128_S128x256_S50000x256_1_0_0_1_n_n none x w (ix2 r q)
      = ∑ k : Fin 128, x (ix2 r k) * w (ix2 k q) := by
  simp only [Host.dotGeneral]
  exact (Ideal.dotGeneral_apply _ _ _ _ _ _).trans (refDot0_sum x w r q)

/-- The left operand's row coordinate does not depend on the contraction position. -/
theorem refDot1_lhs0 (i : S50000x256.Idx) (c : dot_S50000x256_S256x256_S50000x256_1_0_0_1_n_n.contr.Idx) : (dot_S50000x256_S256x256_S50000x256_1_0_0_1_n_n.lhsIdx i c 0).val = (i 0).val := by
  unfold DotDims.lhsIdx
  rw [dif_neg (show ¬(0 : Fin S50000x256.rank) ∈ dot_S50000x256_S256x256_S50000x256_1_0_0_1_n_n.lhsBatch from List.not_mem_nil),
    dif_pos (show (0 : Fin S50000x256.rank) ∈ dot_S50000x256_S256x256_S50000x256_1_0_0_1_n_n.lhsNonContracting from List.mem_singleton.mpr rfl)]
  rfl
/-- The left operand's column coordinate is the contraction position. -/
theorem refDot1_lhs1 (i : S50000x256.Idx) (c : dot_S50000x256_S256x256_S50000x256_1_0_0_1_n_n.contr.Idx) : (dot_S50000x256_S256x256_S50000x256_1_0_0_1_n_n.lhsIdx i c 1).val = (c ⟨0, Nat.one_pos⟩).val :=
  dot_S50000x256_S256x256_S50000x256_1_0_0_1_n_n.lhsIdx_val_of_single rfl i c
/-- The right operand's row coordinate is the contraction position. -/
theorem refDot1_rhs0 (i : S50000x256.Idx) (c : dot_S50000x256_S256x256_S50000x256_1_0_0_1_n_n.contr.Idx) : (dot_S50000x256_S256x256_S50000x256_1_0_0_1_n_n.rhsIdx i c 0).val = (c ⟨0, Nat.one_pos⟩).val :=
  dot_S50000x256_S256x256_S50000x256_1_0_0_1_n_n.rhsIdx_val_of_single rfl i c
/-- The right operand's column coordinate does not depend on the contraction position. -/
theorem refDot1_rhs1 (i : S50000x256.Idx) (c : dot_S50000x256_S256x256_S50000x256_1_0_0_1_n_n.contr.Idx) : (dot_S50000x256_S256x256_S50000x256_1_0_0_1_n_n.rhsIdx i c 1).val = (i 1).val := by
  unfold DotDims.rhsIdx
  rw [dif_neg (show ¬(1 : Fin S256x256.rank) ∈ dot_S50000x256_S256x256_S50000x256_1_0_0_1_n_n.rhsBatch from List.not_mem_nil),
    dif_pos (show (1 : Fin S256x256.rank) ∈ dot_S50000x256_S256x256_S50000x256_1_0_0_1_n_n.rhsNonContracting from List.mem_singleton.mpr rfl)]
  rfl

/-- The contraction of a 50000 × 256 array with a 256 × 256 one, read at (r, q): the sum over the 256 shared coordinates. -/
theorem refDot1_sum {φ₁ φ₂ : FTy} (x : FVec Ideal S50000x256 φ₁) (w : FVec Ideal S256x256 φ₂) (r : Fin 50000) (q : Fin 256) :
    (∑ c : dot_S50000x256_S256x256_S50000x256_1_0_0_1_n_n.contr.Idx, x (dot_S50000x256_S256x256_S50000x256_1_0_0_1_n_n.lhsIdx (ix2 r q) c) * w (dot_S50000x256_S256x256_S50000x256_1_0_0_1_n_n.rhsIdx (ix2 r q) c))
      = ∑ k : Fin 256, x (ix2 r k) * w (ix2 k q) := by
  rw [← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx (ix2 r q) ((contrEquiv1 dot_S50000x256_S256x256_S50000x256_1_0_0_1_n_n 256 rfl rfl).symm k) = ix2 r k := funext fun a => Fin.ext (by
    match a with
    | ⟨0, _⟩ => exact refDot1_lhs0 _ _
    | ⟨1, _⟩ => exact (refDot1_lhs1 _ _).trans hk)
  have er : dot_S50000x256_S256x256_S50000x256_1_0_0_1_n_n.rhsIdx (ix2 r q) ((contrEquiv1 dot_S50000x256_S256x256_S50000x256_1_0_0_1_n_n 256 rfl rfl).symm k) = ix2 k q := funext fun a => Fin.ext (by
    match a with
    | ⟨0, _⟩ => exact (refDot1_rhs0 _ _).trans hk
    | ⟨1, _⟩ => exact refDot1_rhs1 _ _)
  rw [el, er]

/-- The host's product of a 50000 × 256 array with a 256 × 256 one, read at (r, q). -/
theorem refDot1_apply (x : FVec Ideal S50000x256 .f32) (w : FVec Ideal S256x256 .f32) (r : Fin 50000) (q : Fin 256) :
    Host.dotGeneral (F := Ideal) dot_S50000x256_S256x256_S50000x256_1_0_0_1_n_n none x w (ix2 r q)
      = ∑ k : Fin 256, x (ix2 r k) * w (ix2 k q) := by
  simp only [Host.dotGeneral]
  exact (Ideal.dotGeneral_apply _ _ _ _ _ _).trans (refDot1_sum x w r q)

/-- The left operand's row coordinate does not depend on the contraction position. -/
theorem refDot2_lhs0 (i : S50000x128.Idx) (c : dot_S50000x256_S256x128_S50000x128_1_0_0_1_n_n.contr.Idx) : (dot_S50000x256_S256x128_S50000x128_1_0_0_1_n_n.lhsIdx i c 0).val = (i 0).val := by
  unfold DotDims.lhsIdx
  rw [dif_neg (show ¬(0 : Fin S50000x256.rank) ∈ dot_S50000x256_S256x128_S50000x128_1_0_0_1_n_n.lhsBatch from List.not_mem_nil),
    dif_pos (show (0 : Fin S50000x256.rank) ∈ dot_S50000x256_S256x128_S50000x128_1_0_0_1_n_n.lhsNonContracting from List.mem_singleton.mpr rfl)]
  rfl
/-- The left operand's column coordinate is the contraction position. -/
theorem refDot2_lhs1 (i : S50000x128.Idx) (c : dot_S50000x256_S256x128_S50000x128_1_0_0_1_n_n.contr.Idx) : (dot_S50000x256_S256x128_S50000x128_1_0_0_1_n_n.lhsIdx i c 1).val = (c ⟨0, Nat.one_pos⟩).val :=
  dot_S50000x256_S256x128_S50000x128_1_0_0_1_n_n.lhsIdx_val_of_single rfl i c
/-- The right operand's row coordinate is the contraction position. -/
theorem refDot2_rhs0 (i : S50000x128.Idx) (c : dot_S50000x256_S256x128_S50000x128_1_0_0_1_n_n.contr.Idx) : (dot_S50000x256_S256x128_S50000x128_1_0_0_1_n_n.rhsIdx i c 0).val = (c ⟨0, Nat.one_pos⟩).val :=
  dot_S50000x256_S256x128_S50000x128_1_0_0_1_n_n.rhsIdx_val_of_single rfl i c
/-- The right operand's column coordinate does not depend on the contraction position. -/
theorem refDot2_rhs1 (i : S50000x128.Idx) (c : dot_S50000x256_S256x128_S50000x128_1_0_0_1_n_n.contr.Idx) : (dot_S50000x256_S256x128_S50000x128_1_0_0_1_n_n.rhsIdx i c 1).val = (i 1).val := by
  unfold DotDims.rhsIdx
  rw [dif_neg (show ¬(1 : Fin S256x128.rank) ∈ dot_S50000x256_S256x128_S50000x128_1_0_0_1_n_n.rhsBatch from List.not_mem_nil),
    dif_pos (show (1 : Fin S256x128.rank) ∈ dot_S50000x256_S256x128_S50000x128_1_0_0_1_n_n.rhsNonContracting from List.mem_singleton.mpr rfl)]
  rfl

/-- The contraction of a 50000 × 256 array with a 256 × 128 one, read at (r, q): the sum over the 256 shared coordinates. -/
theorem refDot2_sum {φ₁ φ₂ : FTy} (x : FVec Ideal S50000x256 φ₁) (w : FVec Ideal S256x128 φ₂) (r : Fin 50000) (q : Fin 128) :
    (∑ c : dot_S50000x256_S256x128_S50000x128_1_0_0_1_n_n.contr.Idx, x (dot_S50000x256_S256x128_S50000x128_1_0_0_1_n_n.lhsIdx (ix2 r q) c) * w (dot_S50000x256_S256x128_S50000x128_1_0_0_1_n_n.rhsIdx (ix2 r q) c))
      = ∑ k : Fin 256, x (ix2 r k) * w (ix2 k q) := by
  rw [← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 r q) ((contrEquiv1 dot_S50000x256_S256x128_S50000x128_1_0_0_1_n_n 256 rfl rfl).symm k) = ix2 r k := funext fun a => Fin.ext (by
    match a with
    | ⟨0, _⟩ => exact refDot2_lhs0 _ _
    | ⟨1, _⟩ => exact (refDot2_lhs1 _ _).trans hk)
  have er : dot_S50000x256_S256x128_S50000x128_1_0_0_1_n_n.rhsIdx (ix2 r q) ((contrEquiv1 dot_S50000x256_S256x128_S50000x128_1_0_0_1_n_n 256 rfl rfl).symm k) = ix2 k q := funext fun a => Fin.ext (by
    match a with
    | ⟨0, _⟩ => exact (refDot2_rhs0 _ _).trans hk
    | ⟨1, _⟩ => exact refDot2_rhs1 _ _)
  rw [el, er]

/-- The host's product of a 50000 × 256 array with a 256 × 128 one, read at (r, q). -/
theorem refDot2_apply (x : FVec Ideal S50000x256 .f32) (w : FVec Ideal S256x128 .f32) (r : Fin 50000) (q : Fin 128) :
    Host.dotGeneral (F := Ideal) dot_S50000x256_S256x128_S50000x128_1_0_0_1_n_n none x w (ix2 r q)
      = ∑ k : Fin 256, x (ix2 r k) * w (ix2 k q) := by
  simp only [Host.dotGeneral]
  exact (Ideal.dotGeneral_apply _ _ _ _ _ _).trans (refDot2_sum x w r q)

/-- A bias of 256 entries laid along each of the 50000 rows reads, at (r, q), its entry q. -/
theorem refBias256_apply (b : FVec Ideal S256 .f32) (r : Fin 50000) (q : Fin 256) :
    broadcastInDim S50000x256 ![0, 1] bcast_S1x256_S50000x256_0_1 (broadcastInDim S1x256 ![1] bcast_S256_S1x256_1 b) (ix2 r q)
      = b (ix1 q) := by
  refine (broadcastInDim_apply ![0, 1] bcast_S1x256_S50000x256_0_1 _ (ix2 r q) (ix2 (0 : Fin 1) q) ?_).trans ?_
  · intro a
    match a with
    | ⟨0, _⟩ => rfl
    | ⟨1, _⟩ => rfl
  · refine broadcastInDim_apply ![1] bcast_S256_S1x256_1 b (ix2 (0 : Fin 1) q) (ix1 q) ?_
    intro a
    match a with
    | ⟨0, _⟩ => rfl

/-- A bias of 128 entries laid along each of the 50000 rows reads, at (r, q), its entry q. -/
theorem refBias128_apply (b : FVec Ideal S128 .f32) (r : Fin 50000) (q : Fin 128) :
    broadcastInDim S50000x128 ![0, 1] bcast_S1x128_S50000x128_0_1 (broadcastInDim S1x128 ![1] bcast_S128_S1x128_1 b) (ix2 r q)
      = b (ix1 q) := by
  refine (broadcastInDim_apply ![0, 1] bcast_S1x128_S50000x128_0_1 _ (ix2 r q) (ix2 (0 : Fin 1) q) ?_).trans ?_
  · intro a
    match a with
    | ⟨0, _⟩ => rfl
    | ⟨1, _⟩ => rfl
  · refine broadcastInDim_apply ![1] bcast_S128_S1x128_1 b (ix2 (0 : Fin 1) q) (ix1 q) ?_
    intro a
    match a with
    | ⟨0, _⟩ => rfl

end Reference

/-- The first layer's dense part at row r, column q: the two products' sums and the bias entry. -/
theorem dense0_apply [Cert.ReferenceIdeal.Facts] (h n : FVec Ideal Cert.ReferenceIdeal.S50000x128 .f32)
    (ws wn : FVec Ideal Cert.ReferenceIdeal.S128x256 .f32) (b : FVec Ideal Cert.ReferenceIdeal.S256 .f32)
    (r : Fin 50000) (q : Fin 256) :
    dense0 (F := Ideal) h n ws wn b (ix2 r q)
      = ((∑ k : Fin 128, h (ix2 r k) * ws (ix2 k q)) + (∑ k : Fin 128, n (ix2 r k) * wn (ix2 k q))) + b (ix1 q) := by
  unfold dense0
  rw [addf_apply, addf_apply, refDot0_apply, refDot0_apply, refBias256_apply]

/-- The middle layer's dense part at row r, column q: the two products' sums and the bias entry. -/
theorem dense1_apply [Cert.ReferenceIdeal.Facts] (h n : FVec Ideal Cert.ReferenceIdeal.S50000x256 .f32)
    (ws wn : FVec Ideal Cert.ReferenceIdeal.S256x256 .f32) (b : FVec Ideal Cert.ReferenceIdeal.S256 .f32)
    (r : Fin 50000) (q : Fin 256) :
    dense1 (F := Ideal) h n ws wn b (ix2 r q)
      = ((∑ k : Fin 256, h (ix2 r k) * ws (ix2 k q)) + (∑ k : Fin 256, n (ix2 r k) * wn (ix2 k q))) + b (ix1 q) := by
  unfold dense1
  rw [addf_apply, addf_apply, refDot1_apply, refDot1_apply, refBias256_apply]

/-- The last layer's dense part at row r, column q: the two products' sums and the bias entry. -/
theorem dense2_apply [Cert.ReferenceIdeal.Facts] (h n : FVec Ideal Cert.ReferenceIdeal.S50000x256 .f32)
    (ws wn : FVec Ideal Cert.ReferenceIdeal.S256x128 .f32) (b : FVec Ideal Cert.ReferenceIdeal.S128 .f32)
    (r : Fin 50000) (q : Fin 128) :
    dense2 (F := Ideal) h n ws wn b (ix2 r q)
      = ((∑ k : Fin 256, h (ix2 r k) * ws (ix2 k q)) + (∑ k : Fin 256, n (ix2 r k) * wn (ix2 k q))) + b (ix1 q) := by
  unfold dense2
  rw [addf_apply, addf_apply, refDot2_apply, refDot2_apply, refBias128_apply]

/-! ## The kernel's side: a block's products into the zero accumulator, and its payloads, at an index -/

section Kernel
open Cert.KernelIdeal Cert.KernelIdeal.Facts₀ Cert.KernelIdeal.Facts
variable [Cert.KernelIdeal.Facts]

/-- The left operand's row coordinate does not depend on the contraction position. -/
theorem kerDot0_lhs0 (i : S2000x256.Idx) (c : dot_S2000x128_S128x256_S2000x256_1_0_0_1_n_n.contr.Idx) : (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch from List.not_mem_nil),
    dif_pos (show (0 : Fin S2000x128.rank) ∈ dot_S2000x128_S128x256_S2000x256_1_0_0_1_n_n.lhsNonContracting from List.mem_singleton.mpr rfl)]
  rfl
/-- The left operand's column coordinate is the contraction position. -/
theorem kerDot0_lhs1 (i : S2000x256.Idx) (c : dot_S2000x128_S128x256_S2000x256_1_0_0_1_n_n.contr.Idx) : (dot_S2000x128_S128x256_S2000x256_1_0_0_1_n_n.lhsIdx i c 1).val = (c ⟨0, Nat.one_pos⟩).val :=
  dot_S2000x128_S128x256_S2000x256_1_0_0_1_n_n.lhsIdx_val_of_single rfl i c
/-- The right operand's row coordinate is the contraction position. -/
theorem kerDot0_rhs0 (i : S2000x256.Idx) (c : dot_S2000x128_S128x256_S2000x256_1_0_0_1_n_n.contr.Idx) : (dot_S2000x128_S128x256_S2000x256_1_0_0_1_n_n.rhsIdx i c 0).val = (c ⟨0, Nat.one_pos⟩).val :=
  dot_S2000x128_S128x256_S2000x256_1_0_0_1_n_n.rhsIdx_val_of_single rfl i c
/-- The right operand's column coordinate does not depend on the contraction position. -/
theorem kerDot0_rhs1 (i : S2000x256.Idx) (c : dot_S2000x128_S128x256_S2000x256_1_0_0_1_n_n.contr.Idx) : (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch from List.not_mem_nil),
    dif_pos (show (1 : Fin S128x256.rank) ∈ dot_S2000x128_S128x256_S2000x256_1_0_0_1_n_n.rhsNonContracting from List.mem_singleton.mpr rfl)]
  rfl

/-- The contraction of a 2000 × 128 array with a 128 × 256 one, read at (r, q): the sum over the 128 shared coordinates. -/
theorem kerDot0_sum {φ₁ φ₂ : FTy} (x : FVec Ideal S2000x128 φ₁) (w : FVec Ideal S128x256 φ₂) (r : Fin 2000) (q : Fin 256) :
    (∑ c : dot_S2000x128_S128x256_S2000x256_1_0_0_1_n_n.contr.Idx, x (dot_S2000x128_S128x256_S2000x256_1_0_0_1_n_n.lhsIdx (ix2 r q) c) * w (dot_S2000x128_S128x256_S2000x256_1_0_0_1_n_n.rhsIdx (ix2 r q) c))
      = ∑ k : Fin 128, x (ix2 r k) * w (ix2 k q) := by
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r q) ((contrEquiv1 dot_S2000x128_S128x256_S2000x256_1_0_0_1_n_n 128 rfl rfl).symm k) = ix2 r k := funext fun a => Fin.ext (by
    match a with
    | ⟨0, _⟩ => exact kerDot0_lhs0 _ _
    | ⟨1, _⟩ => exact (kerDot0_lhs1 _ _).trans hk)
  have er : dot_S2000x128_S128x256_S2000x256_1_0_0_1_n_n.rhsIdx (ix2 r q) ((contrEquiv1 dot_S2000x128_S128x256_S2000x256_1_0_0_1_n_n 128 rfl rfl).symm k) = ix2 k q := funext fun a => Fin.ext (by
    match a with
    | ⟨0, _⟩ => exact (kerDot0_rhs0 _ _).trans hk
    | ⟨1, _⟩ => exact kerDot0_rhs1 _ _)
  rw [el, er]

/-- A block's product of a 2000 × 128 array with a 128 × 256 one into the zero accumulator, read at (p, q). -/
theorem kerDot0_apply {φ₁ φ₂ : FTy} (x : FVec Ideal S2000x128 φ₁) (w : FVec Ideal S128x256 φ₂) (p : Fin 2000) (q : Fin 256) :
    matmul (F := Ideal) dot_S2000x128_S128x256_S2000x256_1_0_0_1_n_n none x w (constant S2000x256 .f32 0x00000000#32) (ix2 p q)
      = ∑ k : Fin 128, x (ix2 p k) * w (ix2 k q) :=
  (Ideal.matmul_constant_zero_apply _ none x w (ix2 p q)).trans (kerDot0_sum x w p q)

/-- The left operand's row coordinate does not depend on the contraction position. -/
theorem kerDot1_lhs0 (i : S2000x256.Idx) (c : dot_S2000x256_S256x256_S2000x256_1_0_0_1_n_n.contr.Idx) : (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch from List.not_mem_nil),
    dif_pos (show (0 : Fin S2000x256.rank) ∈ dot_S2000x256_S256x256_S2000x256_1_0_0_1_n_n.lhsNonContracting from List.mem_singleton.mpr rfl)]
  rfl
/-- The left operand's column coordinate is the contraction position. -/
theorem kerDot1_lhs1 (i : S2000x256.Idx) (c : dot_S2000x256_S256x256_S2000x256_1_0_0_1_n_n.contr.Idx) : (dot_S2000x256_S256x256_S2000x256_1_0_0_1_n_n.lhsIdx i c 1).val = (c ⟨0, Nat.one_pos⟩).val :=
  dot_S2000x256_S256x256_S2000x256_1_0_0_1_n_n.lhsIdx_val_of_single rfl i c
/-- The right operand's row coordinate is the contraction position. -/
theorem kerDot1_rhs0 (i : S2000x256.Idx) (c : dot_S2000x256_S256x256_S2000x256_1_0_0_1_n_n.contr.Idx) : (dot_S2000x256_S256x256_S2000x256_1_0_0_1_n_n.rhsIdx i c 0).val = (c ⟨0, Nat.one_pos⟩).val :=
  dot_S2000x256_S256x256_S2000x256_1_0_0_1_n_n.rhsIdx_val_of_single rfl i c
/-- The right operand's column coordinate does not depend on the contraction position. -/
theorem kerDot1_rhs1 (i : S2000x256.Idx) (c : dot_S2000x256_S256x256_S2000x256_1_0_0_1_n_n.contr.Idx) : (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch from List.not_mem_nil),
    dif_pos (show (1 : Fin S256x256.rank) ∈ dot_S2000x256_S256x256_S2000x256_1_0_0_1_n_n.rhsNonContracting from List.mem_singleton.mpr rfl)]
  rfl

/-- The contraction of a 2000 × 256 array with a 256 × 256 one, read at (r, q): the sum over the 256 shared coordinates. -/
theorem kerDot1_sum {φ₁ φ₂ : FTy} (x : FVec Ideal S2000x256 φ₁) (w : FVec Ideal S256x256 φ₂) (r : Fin 2000) (q : Fin 256) :
    (∑ c : dot_S2000x256_S256x256_S2000x256_1_0_0_1_n_n.contr.Idx, x (dot_S2000x256_S256x256_S2000x256_1_0_0_1_n_n.lhsIdx (ix2 r q) c) * w (dot_S2000x256_S256x256_S2000x256_1_0_0_1_n_n.rhsIdx (ix2 r q) c))
      = ∑ k : Fin 256, x (ix2 r k) * w (ix2 k q) := by
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r q) ((contrEquiv1 dot_S2000x256_S256x256_S2000x256_1_0_0_1_n_n 256 rfl rfl).symm k) = ix2 r k := funext fun a => Fin.ext (by
    match a with
    | ⟨0, _⟩ => exact kerDot1_lhs0 _ _
    | ⟨1, _⟩ => exact (kerDot1_lhs1 _ _).trans hk)
  have er : dot_S2000x256_S256x256_S2000x256_1_0_0_1_n_n.rhsIdx (ix2 r q) ((contrEquiv1 dot_S2000x256_S256x256_S2000x256_1_0_0_1_n_n 256 rfl rfl).symm k) = ix2 k q := funext fun a => Fin.ext (by
    match a with
    | ⟨0, _⟩ => exact (kerDot1_rhs0 _ _).trans hk
    | ⟨1, _⟩ => exact kerDot1_rhs1 _ _)
  rw [el, er]

/-- A block's product of a 2000 × 256 array with a 256 × 256 one into the zero accumulator, read at (p, q). -/
theorem kerDot1_apply {φ₁ φ₂ : FTy} (x : FVec Ideal S2000x256 φ₁) (w : FVec Ideal S256x256 φ₂) (p : Fin 2000) (q : Fin 256) :
    matmul (F := Ideal) dot_S2000x256_S256x256_S2000x256_1_0_0_1_n_n none x w (constant S2000x256 .f32 0x00000000#32) (ix2 p q)
      = ∑ k : Fin 256, x (ix2 p k) * w (ix2 k q) :=
  (Ideal.matmul_constant_zero_apply _ none x w (ix2 p q)).trans (kerDot1_sum x w p q)

/-- The left operand's row coordinate does not depend on the contraction position. -/
theorem kerDot2_lhs0 (i : S2000x128.Idx) (c : dot_S2000x256_S256x128_S2000x128_1_0_0_1_n_n.contr.Idx) : (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch from List.not_mem_nil),
    dif_pos (show (0 : Fin S2000x256.rank) ∈ dot_S2000x256_S256x128_S2000x128_1_0_0_1_n_n.lhsNonContracting from List.mem_singleton.mpr rfl)]
  rfl
/-- The left operand's column coordinate is the contraction position. -/
theorem kerDot2_lhs1 (i : S2000x128.Idx) (c : dot_S2000x256_S256x128_S2000x128_1_0_0_1_n_n.contr.Idx) : (dot_S2000x256_S256x128_S2000x128_1_0_0_1_n_n.lhsIdx i c 1).val = (c ⟨0, Nat.one_pos⟩).val :=
  dot_S2000x256_S256x128_S2000x128_1_0_0_1_n_n.lhsIdx_val_of_single rfl i c
/-- The right operand's row coordinate is the contraction position. -/
theorem kerDot2_rhs0 (i : S2000x128.Idx) (c : dot_S2000x256_S256x128_S2000x128_1_0_0_1_n_n.contr.Idx) : (dot_S2000x256_S256x128_S2000x128_1_0_0_1_n_n.rhsIdx i c 0).val = (c ⟨0, Nat.one_pos⟩).val :=
  dot_S2000x256_S256x128_S2000x128_1_0_0_1_n_n.rhsIdx_val_of_single rfl i c
/-- The right operand's column coordinate does not depend on the contraction position. -/
theorem kerDot2_rhs1 (i : S2000x128.Idx) (c : dot_S2000x256_S256x128_S2000x128_1_0_0_1_n_n.contr.Idx) : (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch from List.not_mem_nil),
    dif_pos (show (1 : Fin S256x128.rank) ∈ dot_S2000x256_S256x128_S2000x128_1_0_0_1_n_n.rhsNonContracting from List.mem_singleton.mpr rfl)]
  rfl

/-- The contraction of a 2000 × 256 array with a 256 × 128 one, read at (r, q): the sum over the 256 shared coordinates. -/
theorem kerDot2_sum {φ₁ φ₂ : FTy} (x : FVec Ideal S2000x256 φ₁) (w : FVec Ideal S256x128 φ₂) (r : Fin 2000) (q : Fin 128) :
    (∑ c : dot_S2000x256_S256x128_S2000x128_1_0_0_1_n_n.contr.Idx, x (dot_S2000x256_S256x128_S2000x128_1_0_0_1_n_n.lhsIdx (ix2 r q) c) * w (dot_S2000x256_S256x128_S2000x128_1_0_0_1_n_n.rhsIdx (ix2 r q) c))
      = ∑ k : Fin 256, x (ix2 r k) * w (ix2 k q) := by
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 r q) ((contrEquiv1 dot_S2000x256_S256x128_S2000x128_1_0_0_1_n_n 256 rfl rfl).symm k) = ix2 r k := funext fun a => Fin.ext (by
    match a with
    | ⟨0, _⟩ => exact kerDot2_lhs0 _ _
    | ⟨1, _⟩ => exact (kerDot2_lhs1 _ _).trans hk)
  have er : dot_S2000x256_S256x128_S2000x128_1_0_0_1_n_n.rhsIdx (ix2 r q) ((contrEquiv1 dot_S2000x256_S256x128_S2000x128_1_0_0_1_n_n 256 rfl rfl).symm k) = ix2 k q := funext fun a => Fin.ext (by
    match a with
    | ⟨0, _⟩ => exact (kerDot2_rhs0 _ _).trans hk
    | ⟨1, _⟩ => exact kerDot2_rhs1 _ _)
  rw [el, er]

/-- A block's product of a 2000 × 256 array with a 256 × 128 one into the zero accumulator, read at (p, q). -/
theorem kerDot2_apply {φ₁ φ₂ : FTy} (x : FVec Ideal S2000x256 φ₁) (w : FVec Ideal S256x128 φ₂) (p : Fin 2000) (q : Fin 128) :
    matmul (F := Ideal) dot_S2000x256_S256x128_S2000x128_1_0_0_1_n_n none x w (constant S2000x128 .f32 0x00000000#32) (ix2 p q)
      = ∑ k : Fin 256, x (ix2 p k) * w (ix2 k q) :=
  (Ideal.matmul_constant_zero_apply _ none x w (ix2 p q)).trans (kerDot2_sum x w p q)

end Kernel

/-- The first layer's payload at row p of a block, column q. -/
theorem pay0_apply [Cert.KernelIdeal.Facts] (x0 x1 : Vec Ideal Cert.KernelIdeal.S2000x128 .f32)
    (x2 x3 : Vec Ideal Cert.KernelIdeal.S128x256 .f32) (x4 : Vec Ideal Cert.KernelIdeal.S1x256 .f32)
    (p : Fin 2000) (q : Fin 256) :
    Cert.KernelIdeal.Gen.k0_pay1 (F := Ideal) x0 x1 x2 x3 x4 (ix2 p q)
      = max (((∑ k : Fin 128, x0 (ix2 p k) * x2 (ix2 k q)) + (∑ k : Fin 128, x1 (ix2 p k) * x3 (ix2 k q))) + x4 (ix2 0 q))
          (Ideal.ofBits .f32 0x00000000#32) := by
  unfold Cert.KernelIdeal.Gen.k0_pay1
  rw [maximumf_apply, addf_apply, addf_apply, broadcast_apply, kerDot0_apply, kerDot0_apply,
    shapeCast_self, shapeCast_self, broadcastTo_1b_ab_apply]
  simp only [truncf_apply]
  rfl

/-- The middle layer's payload at row p of a block, column q. -/
theorem pay1_apply [Cert.KernelIdeal.Facts] (x0 x1 : Vec Ideal Cert.KernelIdeal.S2000x256 .f32)
    (x2 x3 : Vec Ideal Cert.KernelIdeal.S256x256 .f32) (x4 : Vec Ideal Cert.KernelIdeal.S1x256 .f32)
    (p : Fin 2000) (q : Fin 256) :
    Cert.KernelIdeal.Gen.k1_pay1 (F := Ideal) x0 x1 x2 x3 x4 (ix2 p q)
      = max (((∑ k : Fin 256, x0 (ix2 p k) * x2 (ix2 k q)) + (∑ k : Fin 256, x1 (ix2 p k) * x3 (ix2 k q))) + x4 (ix2 0 q))
          (Ideal.ofBits .f32 0x00000000#32) := by
  unfold Cert.KernelIdeal.Gen.k1_pay1
  rw [maximumf_apply, addf_apply, addf_apply, broadcast_apply, kerDot1_apply, kerDot1_apply,
    shapeCast_self, shapeCast_self, shapeCast_self, broadcastTo_1b_ab_apply]
  simp only [truncf_apply]
  rfl

/-- The last layer's payload at row p of a block, column q (no maximum in the last layer). -/
theorem pay2_apply [Cert.KernelIdeal.Facts] (x0 x1 : Vec Ideal Cert.KernelIdeal.S2000x256 .f32)
    (x2 x3 : Vec Ideal Cert.KernelIdeal.S256x128 .f32) (x4 : Vec Ideal Cert.KernelIdeal.S1x128 .f32)
    (p : Fin 2000) (q : Fin 128) :
    Cert.KernelIdeal.Gen.k2_pay1 (F := Ideal) x0 x1 x2 x3 x4 (ix2 p q)
      = ((∑ k : Fin 256, x0 (ix2 p k) * x2 (ix2 k q)) + (∑ k : Fin 256, x1 (ix2 p k) * x3 (ix2 k q))) + x4 (ix2 0 q) := by
  unfold Cert.KernelIdeal.Gen.k2_pay1
  rw [addf_apply, addf_apply, kerDot2_apply, kerDot2_apply,
    shapeCast_self, shapeCast_self, shapeCast_self, broadcastTo_1b_ab_apply]
  simp only [truncf_apply]

end Cert.Sage

end
-- ==== Proof.Common.lean ====
/-
  Two small reads shared by the layers: `max(·, 0)` of an array at an index, and the bias vector viewed as a one-row
  array read at (0, q).
-/
import proofs.«142392_j26560077759064_1_alg».proof.KernelIdeal
import proofs.«142392_j26560077759064_1_alg».proof.Proof.Gen.KernelIdeal
import proofs.«142392_j26560077759064_1_alg».proof.Proof.Gen.ReferenceIdeal
import proofs.«142392_j26560077759064_1_alg».proof.Proof.Spec
import Idealize.ShloMosaic.Lib.ValueIdx
import Idealize.ShloMosaic.Lib.Pipeline.Value

set_option maxRecDepth 16384

noncomputable section

namespace Cert.Sage

open Idealize.ShloMosaic Idealize.ShloMosaic.ValueIdx
open Cert.KernelIdeal
open Cert.KernelIdeal.Facts₀ Cert.KernelIdeal.Facts

/-- `max(·, 0)` read at an index: the broadcast zero scalar reads the zero word everywhere. -/
theorem relu256_apply (x : FVec Ideal Cert.ReferenceIdeal.S50000x256 .f32) (i : Cert.ReferenceIdeal.S50000x256.Idx) :
    relu256 (F := Ideal) x i = max (x i) (Ideal.ofBits .f32 0x00000000#32) := by
  unfold relu256
  rw [maximumf_apply]
  congr 1

/-- A 256-entry bias viewed as a one-row array, read at (0, q), is the bias at q: the two indices have the same
    row-major position. -/
theorem biasRow256_apply (b : S256.Idx → EReal) (q : Fin 256) :
    shapeCast S1x256 b shapeCasts_S256_S1x256 (ix2 (0 : Fin 1) q) = b (ix1 q) :=
  shapeCast_apply b _ (ix2 (0 : Fin 1) q) (ix1 q) (by
    rw [Shape.rowMajor_val_one, Shape.rowMajor_val_two]
    show q.val = (0 : Fin 1).val * 256 + q.val
    simp)

/-- The same for a 128-entry bias. -/
theorem biasRow128_apply (b : S128.Idx → EReal) (q : Fin 128) :
    shapeCast S1x128 b shapeCasts_S128_S1x128 (ix2 (0 : Fin 1) q) = b (ix1 q) :=
  shapeCast_apply b _ (ix2 (0 : Fin 1) q) (ix1 q) (by
    rw [Shape.rowMajor_val_one, Shape.rowMajor_val_two]
    show q.val = (0 : Fin 1).val * 128 + q.val
    simp)

end Cert.Sage

end
-- ==== Proof.Region0.lean ====
/-
  The first region: a grid of 25 points, each taking 2000 rows of the node features and of the aggregated features,
  the two whole 128×256 weight matrices and the bias row, and writing 2000 rows of the output. What a point writes is
  its block of ONE whole-array function of the region's five input arrays; the 25 blocks tile the 50000 rows; so the
  output array after the region is that function — and that function is the first layer's dense part followed by
  `max(·, 0)`.
-/
import proofs.«142392_j26560077759064_1_alg».proof.Proof.Gen.KernelIdeal.Frame
import proofs.«142392_j26560077759064_1_alg».proof.Proof.Gen.ReferenceIdeal
import proofs.«142392_j26560077759064_1_alg».proof.Proof.Spec
import proofs.«142392_j26560077759064_1_alg».proof.Proof.DenseAt
import proofs.«142392_j26560077759064_1_alg».proof.Proof.Common
import Idealize.ShloMosaic.Lib.ValueIdx
import Idealize.ShloMosaic.Lib.Pipeline.Value
import Idealize.ShloMosaic.PureOps.Ideal.Laws

set_option maxRecDepth 16384

noncomputable section

namespace Cert.Sage

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

/-! ## The first region's output array as one function of its five input arrays -/

/-- One entry of the output: row `r` of the features times column `q` of the self weights, plus row `r` of the
    aggregated features times column `q` of the neighbour weights, plus entry `q` of the bias row, then `max(·, 0)`. -/
def cell0 (h n : S50000x128.Idx → EReal) (ws wn : S128x256.Idx → EReal) (b : S1x256.Idx → EReal) (r : Fin 50000) (q : Fin 256) : EReal :=
  max ((((∑ k : Fin 128, h (ix2 r k) * ws (ix2 k q)) + (∑ k : Fin 128, n (ix2 r k) * wn (ix2 k q))) + b (ix2 0 q))) (Ideal.ofBits .f32 0x00000000#32)

/-- The whole output array. -/
def regionOut0 (h n : S50000x128.Idx → EReal) (ws wn : S128x256.Idx → EReal) (b : S1x256.Idx → EReal) : S50000x256.Idx → EReal :=
  fun i => cell0 h n ws wn b (i 0) (i 1)

/-- A block's payload at (p, q) is the array's entry at (r, q) as soon as row `p` of the two row blocks is row `r` of
    the two arrays and the weight and bias blocks are the whole arrays. -/
theorem cell0_of_blocks (x0 x1 : Vec Ideal S2000x128 .f32) (x2 x3 : Vec Ideal S128x256 .f32) (x4 : Vec Ideal S1x256 .f32)
    (H N : S50000x128.Idx → EReal) (WS WN : S128x256.Idx → EReal) (B : S1x256.Idx → EReal)
    (p : Fin 2000) (q : Fin 256) (r : Fin 50000)
    (e0 : ∀ k : Fin 128, x0 (ix2 p k) = H (ix2 r k)) (e1 : ∀ k : Fin 128, x1 (ix2 p k) = N (ix2 r k))
    (e2 : ∀ k : Fin 128, x2 (ix2 k q) = WS (ix2 k q)) (e3 : ∀ k : Fin 128, x3 (ix2 k q) = WN (ix2 k q))
    (e4 : x4 (ix2 0 q) = B (ix2 0 q)) :
    k0_pay1 (F := Ideal) x0 x1 x2 x3 x4 (ix2 p q) = cell0 H N WS WN B r q := by
  rw [pay0_apply]
  unfold cell0
  simp only [e0, e1, e2, e3, e4]

theorem hz0 : (![0, 0] : Fin 2 → Nat) = fun _ => 0 := funext fun a => by fin_cases a <;> rfl

/-- The printed index maps over the grid: the two row windows and the output move with the point along the rows; the
    weight and bias windows stay at the origin. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt0 (t : Fin cfg0.N) : t.val < 25 := lt_of_lt_of_eq t.isLt N_0

/-- Row `p` of point `t`'s block of a row window is row `2000 t + p` of the array. -/
theorem emb0_0 (t : Fin cfg0.N) (p : Fin 2000) (k : Fin 128) (hr : t.val * 2000 + p.val < 50000) :
    ((cfg0.win 0).blk t).view.emb (ix2 p k) = ix2 (⟨t.val * 2000 + p.val, hr⟩ : Fin 50000) k := by
  obtain ⟨e00, e01, -⟩ := idx_facts0 t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega
theorem emb0_1 (t : Fin cfg0.N) (p : Fin 2000) (k : Fin 128) (hr : t.val * 2000 + p.val < 50000) :
    ((cfg0.win 1).blk t).view.emb (ix2 p k) = ix2 (⟨t.val * 2000 + p.val, hr⟩ : Fin 50000) k := by
  obtain ⟨-, -, e10, e11, -⟩ := idx_facts0 t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega
/-- The weight blocks and the bias block are the whole arrays. -/
theorem emb0_2 (t : Fin cfg0.N) (k : Fin 128) (q : Fin 256) : ((cfg0.win 2).blk t).view.emb (ix2 k q) = ix2 k q := by
  obtain ⟨-, -, -, -, e20, e21, -⟩ := idx_facts0 t
  funext a; apply Fin.ext
  match a with
  | ⟨0, _⟩ => show win0_2.index t (0 : Fin 2) * 128 + 1 * k.val = k.val; omega
  | ⟨1, _⟩ => show win0_2.index t (1 : Fin 2) * 256 + 1 * q.val = q.val; omega
theorem emb0_3 (t : Fin cfg0.N) (k : Fin 128) (q : Fin 256) : ((cfg0.win 3).blk t).view.emb (ix2 k q) = ix2 k q := by
  obtain ⟨-, -, -, -, -, -, e30, e31, -⟩ := idx_facts0 t
  funext a; apply Fin.ext
  match a with
  | ⟨0, _⟩ => show win0_3.index t (0 : Fin 2) * 128 + 1 * k.val = k.val; omega
  | ⟨1, _⟩ => show win0_3.index t (1 : Fin 2) * 256 + 1 * q.val = q.val; omega
theorem emb0_4 (t : Fin cfg0.N) (z : Fin 1) (q : Fin 256) : ((cfg0.win 4).blk t).view.emb (ix2 z q) = ix2 z q := by
  obtain ⟨-, -, -, -, -, -, -, -, e40, e41, -⟩ := idx_facts0 t
  funext a; apply Fin.ext
  match a with
  | ⟨0, _⟩ => show win0_4.index t (0 : Fin 2) * 1 + 1 * z.val = z.val; omega
  | ⟨1, _⟩ => show win0_4.index t (1 : Fin 2) * 256 + 1 * q.val = q.val; omega
theorem emb0_5 (t : Fin cfg0.N) (p : Fin 2000) (q : Fin 256) (hr : t.val * 2000 + p.val < 50000) :
    ((cfg0.win 5).blk t).view.emb (ix2 p q) = ix2 (⟨t.val * 2000 + p.val, hr⟩ : Fin 50000) q := by
  obtain ⟨-, -, -, -, -, -, -, -, -, -, e50, e51⟩ := idx_facts0 t
  funext a; apply Fin.ext
  match a with
  | ⟨0, _⟩ => show win0_5.index t (0 : Fin 2) * 2000 + 1 * p.val = t.val * 2000 + p.val; omega
  | ⟨1, _⟩ => show win0_5.index t (1 : Fin 2) * 256 + 1 * q.val = q.val; omega

variable (V : (c : Dev nD) → (b : Ref sig .tc) → Buf (Elt Ideal) ((c : Thread nD τ).loc b))

/-- What point `t` writes back is block `t` of `regionOut0` of the arrays as the region finds them. -/
theorem flushed0_eq (c : Dev nD) (t : Fin cfg0.N) :
    (dat0 V c).flushed 5 t = ((cfg0.win 5).blk t).view.read (Elt Ideal)
      (regionOut0 (V c main_arg0) (V c main_v11) (V c main_arg3) (V c main_arg4) (V c main_v12)) := by
  show (cfg0.win 5).cut (grid0.coords t) ((dat0 V c).after 5 t) = _
  rw [after0_5]
  unfold out0_5
  rw [View.canon_unit_zero hz0]
  simp only [View.ld_unit_zero (S := S2000x128) hz0, View.ld_unit_zero (S := S128x256) hz0, View.ld_unit_zero (S := S1x256) hz0]
  funext j
  obtain ⟨p, q, rfl⟩ : ∃ (p : Fin 2000) (q : Fin 256), j = ix2 p q := ⟨j 0, j 1, eq_ix2 j⟩
  have hr : t.val * 2000 + p.val < 50000 := by have := t_lt0 t; have := p.isLt; omega
  rw [View.read_apply]
  show k0_pay1 (iblk0 V c 0 t) (iblk0 V c 1 t) (iblk0 V c 2 t) (iblk0 V c 3 t) (iblk0 V c 4 t) (ix2 p q)
    = regionOut0 (V c main_arg0) (V c main_v11) (V c main_arg3) (V c main_arg4) (V c main_v12) (((cfg0.win 5).blk t).view.emb (ix2 p q))
  rw [emb0_5 t p q hr]
  show _ = cell0 (V c main_arg0) (V c main_v11) (V c main_arg3) (V c main_arg4) (V c main_v12) ⟨t.val * 2000 + p.val, hr⟩ q
  refine cell0_of_blocks (iblk0 V c 0 t) (iblk0 V c 1 t) (iblk0 V c 2 t) (iblk0 V c 3 t) (iblk0 V c 4 t)
    (V c main_arg0) (V c main_v11) (V c main_arg3) (V c main_arg4) (V c main_v12) p q ⟨t.val * 2000 + p.val, hr⟩
    (fun k => ?_) (fun k => ?_) (fun k => ?_) (fun k => ?_) ?_
  · show V c main_arg0 (((cfg0.win 0).blk t).view.emb (ix2 p k)) = _; rw [emb0_0 t p k hr]
  · show V c main_v11 (((cfg0.win 1).blk t).view.emb (ix2 p k)) = _; rw [emb0_1 t p k hr]
  · show V c main_arg3 (((cfg0.win 2).blk t).view.emb (ix2 k q)) = _; rw [emb0_2 t k q]
  · show V c main_arg4 (((cfg0.win 3).blk t).view.emb (ix2 k q)) = _; rw [emb0_3 t k q]
  · show V c main_v12 (((cfg0.win 4).blk t).view.emb (ix2 0 q)) = _; rw [emb0_4 t 0 q]

/-- An index of the output array is in point `t`'s block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v13).slice (win0_5.rect t)).set ↔ _
  rw [View.set_slice_whole, Rect.mem_set_unit]
  exact Iff.rfl

/-- Row `r` of the output lies in the block of point `r / 2000`: the 25 blocks of 2000 rows tile the 50000 rows. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, -, -, -, -, e50, e51⟩ := idx_facts0 t
  have ht : t.val = (i 0).val / 2000 := rfl
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The first region's output array after the region. -/
theorem final0 (c : Dev nD) :
    (dat0 V c).arrAt 5 cfg0.N = regionOut0 (V c main_arg0) (V c main_v11) (V c main_arg3) (V c main_arg4) (V c main_v12) :=
  (dat0 V c).arrAt_eq_of_cover 5 _ (fun t _ => flushed0_eq V c t) cover0

/-- With the bias row the bias vector viewed as one row, the region's function is the layer's dense part followed by
    `max(·, 0)`: entry by entry both are the two row-by-column sums plus the bias entry, then the maximum with zero. -/
theorem regionOut0_spec (h n : S50000x128.Idx → EReal) (ws wn : S128x256.Idx → EReal) (b : S256.Idx → EReal) :
    regionOut0 h n ws wn (shapeCast S1x256 b Facts₀.shapeCasts_S256_S1x256) = relu256 (F := Ideal) (dense0 (F := Ideal) h n ws wn b) := by
  funext i
  obtain ⟨r, q, rfl⟩ : ∃ (r : Fin 50000) (q : Fin 256), i = ix2 r q := ⟨i 0, i 1, eq_ix2 i⟩
  rw [relu256_apply, dense0_apply]
  show cell0 h n ws wn _ r q = _
  unfold cell0
  rw [biasRow256_apply]

end Cert.Sage

end
-- ==== Proof.Region1.lean ====
/-
  The second region: as the first, from 256 columns to 256. What a point writes is its block of one whole-array function of
  the region's five input arrays; the 25 blocks of 2000 rows tile the 50000 rows; the output array after the region is
  that function — the middle layer's dense part followed by `max(·, 0)`.
-/
import proofs.«142392_j26560077759064_1_alg».proof.Proof.Gen.KernelIdeal.Frame
import proofs.«142392_j26560077759064_1_alg».proof.Proof.Gen.ReferenceIdeal
import proofs.«142392_j26560077759064_1_alg».proof.Proof.Spec
import proofs.«142392_j26560077759064_1_alg».proof.Proof.DenseAt
import proofs.«142392_j26560077759064_1_alg».proof.Proof.Common
import Idealize.ShloMosaic.Lib.ValueIdx
import Idealize.ShloMosaic.Lib.Pipeline.Value
import Idealize.ShloMosaic.PureOps.Ideal.Laws

set_option maxRecDepth 16384

noncomputable section

namespace Cert.Sage

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

/-! ## The second region's output array as one function of its five input arrays -/

/-- One entry of the output: row `r` of the features times column `q` of the self weights, plus row `r` of the
    aggregated features times column `q` of the neighbour weights, plus entry `q` of the bias row, then `max(·, 0)`. -/
def cell1 (h n : S50000x256.Idx → EReal) (ws wn : S256x256.Idx → EReal) (b : S1x256.Idx → EReal) (r : Fin 50000) (q : Fin 256) : EReal :=
  max ((((∑ k : Fin 256, h (ix2 r k) * ws (ix2 k q)) + (∑ k : Fin 256, n (ix2 r k) * wn (ix2 k q))) + b (ix2 0 q))) (Ideal.ofBits .f32 0x00000000#32)

/-- The whole output array. -/
def regionOut1 (h n : S50000x256.Idx → EReal) (ws wn : S256x256.Idx → EReal) (b : S1x256.Idx → EReal) : S50000x256.Idx → EReal :=
  fun i => cell1 h n ws wn b (i 0) (i 1)

/-- A block's payload at (p, q) is the array's entry at (r, q) as soon as row `p` of the two row blocks is row `r` of
    the two arrays and the weight and bias blocks are the whole arrays. -/
theorem cell1_of_blocks (x0 x1 : Vec Ideal S2000x256 .f32) (x2 x3 : Vec Ideal S256x256 .f32) (x4 : Vec Ideal S1x256 .f32)
    (H N : S50000x256.Idx → EReal) (WS WN : S256x256.Idx → EReal) (B : S1x256.Idx → EReal)
    (p : Fin 2000) (q : Fin 256) (r : Fin 50000)
    (e0 : ∀ k : Fin 256, x0 (ix2 p k) = H (ix2 r k)) (e1 : ∀ k : Fin 256, x1 (ix2 p k) = N (ix2 r k))
    (e2 : ∀ k : Fin 256, x2 (ix2 k q) = WS (ix2 k q)) (e3 : ∀ k : Fin 256, x3 (ix2 k q) = WN (ix2 k q))
    (e4 : x4 (ix2 0 q) = B (ix2 0 q)) :
    k1_pay1 (F := Ideal) x0 x1 x2 x3 x4 (ix2 p q) = cell1 H N WS WN B r q := by
  rw [pay1_apply]
  unfold cell1
  simp only [e0, e1, e2, e3, e4]

theorem hz1 : (![0, 0] : Fin 2 → Nat) = fun _ => 0 := funext fun a => by fin_cases a <;> rfl

/-- The printed index maps over the grid: the two row windows and the output move with the point along the rows; the
    weight and bias windows stay at the origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt1 (t : Fin cfg1.N) : t.val < 25 := lt_of_lt_of_eq t.isLt N_1

/-- Row `p` of point `t`'s block of a row window is row `2000 t + p` of the array. -/
theorem emb1_0 (t : Fin cfg1.N) (p : Fin 2000) (k : Fin 256) (hr : t.val * 2000 + p.val < 50000) :
    ((cfg1.win 0).blk t).view.emb (ix2 p k) = ix2 (⟨t.val * 2000 + p.val, hr⟩ : Fin 50000) k := by
  obtain ⟨e00, e01, -⟩ := idx_facts1 t
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega
theorem emb1_1 (t : Fin cfg1.N) (p : Fin 2000) (k : Fin 256) (hr : t.val * 2000 + p.val < 50000) :
    ((cfg1.win 1).blk t).view.emb (ix2 p k) = ix2 (⟨t.val * 2000 + p.val, hr⟩ : Fin 50000) k := by
  obtain ⟨-, -, e10, e11, -⟩ := idx_facts1 t
  funext a; apply Fin.ext
  match a with
  | ⟨0, _⟩ => show win1_1.index t (0 : Fin 2) * 2000 + 1 * p.val = t.val * 2000 + p.val; omega
  | ⟨1, _⟩ => show win1_1.index t (1 : Fin 2) * 256 + 1 * k.val = k.val; omega
/-- The weight blocks and the bias block are the whole arrays. -/
theorem emb1_2 (t : Fin cfg1.N) (k : Fin 256) (q : Fin 256) : ((cfg1.win 2).blk t).view.emb (ix2 k q) = ix2 k q := by
  obtain ⟨-, -, -, -, e20, e21, -⟩ := idx_facts1 t
  funext a; apply Fin.ext
  match a with
  | ⟨0, _⟩ => show win1_2.index t (0 : Fin 2) * 256 + 1 * k.val = k.val; omega
  | ⟨1, _⟩ => show win1_2.index t (1 : Fin 2) * 256 + 1 * q.val = q.val; omega
theorem emb1_3 (t : Fin cfg1.N) (k : Fin 256) (q : Fin 256) : ((cfg1.win 3).blk t).view.emb (ix2 k q) = ix2 k q := by
  obtain ⟨-, -, -, -, -, -, e30, e31, -⟩ := idx_facts1 t
  funext a; apply Fin.ext
  match a with
  | ⟨0, _⟩ => show win1_3.index t (0 : Fin 2) * 256 + 1 * k.val = k.val; omega
  | ⟨1, _⟩ => show win1_3.index t (1 : Fin 2) * 256 + 1 * q.val = q.val; omega
theorem emb1_4 (t : Fin cfg1.N) (z : Fin 1) (q : Fin 256) : ((cfg1.win 4).blk t).view.emb (ix2 z q) = ix2 z q := by
  obtain ⟨-, -, -, -, -, -, -, -, e40, e41, -⟩ := idx_facts1 t
  funext a; apply Fin.ext
  match a with
  | ⟨0, _⟩ => show win1_4.index t (0 : Fin 2) * 1 + 1 * z.val = z.val; omega
  | ⟨1, _⟩ => show win1_4.index t (1 : Fin 2) * 256 + 1 * q.val = q.val; omega
theorem emb1_5 (t : Fin cfg1.N) (p : Fin 2000) (q : Fin 256) (hr : t.val * 2000 + p.val < 50000) :
    ((cfg1.win 5).blk t).view.emb (ix2 p q) = ix2 (⟨t.val * 2000 + p.val, hr⟩ : Fin 50000) q := by
  obtain ⟨-, -, -, -, -, -, -, -, -, -, e50, e51⟩ := idx_facts1 t
  funext a; apply Fin.ext
  match a with
  | ⟨0, _⟩ => show win1_5.index t (0 : Fin 2) * 2000 + 1 * p.val = t.val * 2000 + p.val; omega
  | ⟨1, _⟩ => show win1_5.index t (1 : Fin 2) * 256 + 1 * q.val = q.val; omega

variable (V : (c : Dev nD) → (b : Ref sig .tc) → Buf (Elt Ideal) ((c : Thread nD τ).loc b))

/-- What point `t` writes back is block `t` of `regionOut1` of the arrays as the region finds them. -/
theorem flushed1_eq (c : Dev nD) (t : Fin cfg1.N) :
    (dat1 V c).flushed 5 t = ((cfg1.win 5).blk t).view.read (Elt Ideal)
      (regionOut1 (V c main_v13) (V c main_v25) (V c main_arg6) (V c main_arg7) (V c main_v26)) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S256x256) hz1, View.ld_unit_zero (S := S1x256) hz1]
  funext j
  obtain ⟨p, q, rfl⟩ : ∃ (p : Fin 2000) (q : Fin 256), j = ix2 p q := ⟨j 0, j 1, eq_ix2 j⟩
  have hr : t.val * 2000 + p.val < 50000 := by have := t_lt1 t; have := p.isLt; omega
  rw [View.read_apply]
  show k1_pay1 (iblk1 V c 0 t) (iblk1 V c 1 t) (iblk1 V c 2 t) (iblk1 V c 3 t) (iblk1 V c 4 t) (ix2 p q)
    = regionOut1 (V c main_v13) (V c main_v25) (V c main_arg6) (V c main_arg7) (V c main_v26) (((cfg1.win 5).blk t).view.emb (ix2 p q))
  rw [emb1_5 t p q hr]
  show _ = cell1 (V c main_v13) (V c main_v25) (V c main_arg6) (V c main_arg7) (V c main_v26) ⟨t.val * 2000 + p.val, hr⟩ q
  refine cell1_of_blocks (iblk1 V c 0 t) (iblk1 V c 1 t) (iblk1 V c 2 t) (iblk1 V c 3 t) (iblk1 V c 4 t)
    (V c main_v13) (V c main_v25) (V c main_arg6) (V c main_arg7) (V c main_v26) p q ⟨t.val * 2000 + p.val, hr⟩
    (fun k => ?_) (fun k => ?_) (fun k => ?_) (fun k => ?_) ?_
  · show V c main_v13 (((cfg1.win 0).blk t).view.emb (ix2 p k)) = _; rw [emb1_0 t p k hr]
  · show V c main_v25 (((cfg1.win 1).blk t).view.emb (ix2 p k)) = _; rw [emb1_1 t p k hr]
  · show V c main_arg6 (((cfg1.win 2).blk t).view.emb (ix2 k q)) = _; rw [emb1_2 t k q]
  · show V c main_arg7 (((cfg1.win 3).blk t).view.emb (ix2 k q)) = _; rw [emb1_3 t k q]
  · show V c main_v26 (((cfg1.win 4).blk t).view.emb (ix2 0 q)) = _; rw [emb1_4 t 0 q]

/-- An index of the output array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v27).slice (win1_5.rect t)).set ↔ _
  rw [View.set_slice_whole, Rect.mem_set_unit]
  exact Iff.rfl

/-- Row `r` of the output lies in the block of point `r / 2000`: the 25 blocks of 2000 rows tile the 50000 rows. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, -, -, -, -, -, -, e50, e51⟩ := idx_facts1 t
  have ht : t.val = (i 0).val / 2000 := rfl
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The second region's output array after the region. -/
theorem final1 (c : Dev nD) :
    (dat1 V c).arrAt 5 cfg1.N = regionOut1 (V c main_v13) (V c main_v25) (V c main_arg6) (V c main_arg7) (V c main_v26) :=
  (dat1 V c).arrAt_eq_of_cover 5 _ (fun t _ => flushed1_eq V c t) cover1

/-- With the bias row the bias vector viewed as one row, the region's function is the layer's dense part followed by
    `max(·, 0)`: entry by entry both are the two row-by-column sums plus the bias entry, then the maximum with zero. -/
theorem regionOut1_spec (h n : S50000x256.Idx → EReal) (ws wn : S256x256.Idx → EReal) (b : S256.Idx → EReal) :
    regionOut1 h n ws wn (shapeCast S1x256 b Facts₀.shapeCasts_S256_S1x256) = relu256 (F := Ideal) (dense1 (F := Ideal) h n ws wn b) := by
  funext i
  obtain ⟨r, q, rfl⟩ : ∃ (r : Fin 50000) (q : Fin 256), i = ix2 r q := ⟨i 0, i 1, eq_ix2 i⟩
  rw [relu256_apply, dense1_apply]
  show cell1 h n ws wn _ r q = _
  unfold cell1
  rw [biasRow256_apply]

end Cert.Sage

end
-- ==== Proof.Region2.lean ====
/-
  The third region: from 256 columns to 128, and no maximum. What a point writes is its block of one whole-array function of
  the region's five input arrays; the 25 blocks of 2000 rows tile the 50000 rows; the output array after the region is
  that function — the last layer's dense part.
-/
import proofs.«142392_j26560077759064_1_alg».proof.Proof.Gen.KernelIdeal.Frame
import proofs.«142392_j26560077759064_1_alg».proof.Proof.Gen.ReferenceIdeal
import proofs.«142392_j26560077759064_1_alg».proof.Proof.Spec
import proofs.«142392_j26560077759064_1_alg».proof.Proof.DenseAt
import proofs.«142392_j26560077759064_1_alg».proof.Proof.Common
import Idealize.ShloMosaic.Lib.ValueIdx
import Idealize.ShloMosaic.Lib.Pipeline.Value
import Idealize.ShloMosaic.PureOps.Ideal.Laws

set_option maxRecDepth 16384

noncomputable section

namespace Cert.Sage

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Facts₀ Cert.KernelIdeal.Facts

/-! ## The third region's output array as one function of its five input arrays -/

/-- One entry of the output: row `r` of the features times column `q` of the self weights, plus row `r` of the
    aggregated features times column `q` of the neighbour weights, plus entry `q` of the bias row (the last layer takes no maximum). -/
def cell2 (h n : S50000x256.Idx → EReal) (ws wn : S256x128.Idx → EReal) (b : S1x128.Idx → EReal) (r : Fin 50000) (q : Fin 128) : EReal :=
  ((∑ k : Fin 256, h (ix2 r k) * ws (ix2 k q)) + (∑ k : Fin 256, n (ix2 r k) * wn (ix2 k q))) + b (ix2 0 q)

/-- The whole output array. -/
def regionOut2 (h n : S50000x256.Idx → EReal) (ws wn : S256x128.Idx → EReal) (b : S1x128.Idx → EReal) : S50000x128.Idx → EReal :=
  fun i => cell2 h n ws wn b (i 0) (i 1)

/-- A block's payload at (p, q) is the array's entry at (r, q) as soon as row `p` of the two row blocks is row `r` of
    the two arrays and the weight and bias blocks are the whole arrays. -/
theorem cell2_of_blocks (x0 x1 : Vec Ideal S2000x256 .f32) (x2 x3 : Vec Ideal S256x128 .f32) (x4 : Vec Ideal S1x128 .f32)
    (H N : S50000x256.Idx → EReal) (WS WN : S256x128.Idx → EReal) (B : S1x128.Idx → EReal)
    (p : Fin 2000) (q : Fin 128) (r : Fin 50000)
    (e0 : ∀ k : Fin 256, x0 (ix2 p k) = H (ix2 r k)) (e1 : ∀ k : Fin 256, x1 (ix2 p k) = N (ix2 r k))
    (e2 : ∀ k : Fin 256, x2 (ix2 k q) = WS (ix2 k q)) (e3 : ∀ k : Fin 256, x3 (ix2 k q) = WN (ix2 k q))
    (e4 : x4 (ix2 0 q) = B (ix2 0 q)) :
    k2_pay1 (F := Ideal) x0 x1 x2 x3 x4 (ix2 p q) = cell2 H N WS WN B r q := by
  rw [pay2_apply]
  unfold cell2
  simp only [e0, e1, e2, e3, e4]

theorem hz2 : (![0, 0] : Fin 2 → Nat) = fun _ => 0 := funext fun a => by fin_cases a <;> rfl

/-- The printed index maps over the grid: the two row windows and the output move with the point along the rows; the
    weight and bias windows stay at the origin. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt2 (t : Fin cfg2.N) : t.val < 25 := lt_of_lt_of_eq t.isLt N_2

/-- Row `p` of point `t`'s block of a row window is row `2000 t + p` of the array. -/
theorem emb2_0 (t : Fin cfg2.N) (p : Fin 2000) (k : Fin 256) (hr : t.val * 2000 + p.val < 50000) :
    ((cfg2.win 0).blk t).view.emb (ix2 p k) = ix2 (⟨t.val * 2000 + p.val, hr⟩ : Fin 50000) k := by
  obtain ⟨e00, e01, -⟩ := idx_facts2 t
  funext a; apply Fin.ext
  match a with
  | ⟨0, _⟩ => show win2_0.index t (0 : Fin 2) * 2000 + 1 * p.val = t.val * 2000 + p.val; omega
  | ⟨1, _⟩ => show win2_0.index t (1 : Fin 2) * 256 + 1 * k.val = k.val; omega
theorem emb2_1 (t : Fin cfg2.N) (p : Fin 2000) (k : Fin 256) (hr : t.val * 2000 + p.val < 50000) :
    ((cfg2.win 1).blk t).view.emb (ix2 p k) = ix2 (⟨t.val * 2000 + p.val, hr⟩ : Fin 50000) k := by
  obtain ⟨-, -, e10, e11, -⟩ := idx_facts2 t
  funext a; apply Fin.ext
  match a with
  | ⟨0, _⟩ => show win2_1.index t (0 : Fin 2) * 2000 + 1 * p.val = t.val * 2000 + p.val; omega
  | ⟨1, _⟩ => show win2_1.index t (1 : Fin 2) * 256 + 1 * k.val = k.val; omega
/-- The weight blocks and the bias block are the whole arrays. -/
theorem emb2_2 (t : Fin cfg2.N) (k : Fin 256) (q : Fin 128) : ((cfg2.win 2).blk t).view.emb (ix2 k q) = ix2 k q := by
  obtain ⟨-, -, -, -, e20, e21, -⟩ := idx_facts2 t
  funext a; apply Fin.ext
  match a with
  | ⟨0, _⟩ => show win2_2.index t (0 : Fin 2) * 256 + 1 * k.val = k.val; omega
  | ⟨1, _⟩ => show win2_2.index t (1 : Fin 2) * 128 + 1 * q.val = q.val; omega
theorem emb2_3 (t : Fin cfg2.N) (k : Fin 256) (q : Fin 128) : ((cfg2.win 3).blk t).view.emb (ix2 k q) = ix2 k q := by
  obtain ⟨-, -, -, -, -, -, e30, e31, -⟩ := idx_facts2 t
  funext a; apply Fin.ext
  match a with
  | ⟨0, _⟩ => show win2_3.index t (0 : Fin 2) * 256 + 1 * k.val = k.val; omega
  | ⟨1, _⟩ => show win2_3.index t (1 : Fin 2) * 128 + 1 * q.val = q.val; omega
theorem emb2_4 (t : Fin cfg2.N) (z : Fin 1) (q : Fin 128) : ((cfg2.win 4).blk t).view.emb (ix2 z q) = ix2 z q := by
  obtain ⟨-, -, -, -, -, -, -, -, e40, e41, -⟩ := idx_facts2 t
  funext a; apply Fin.ext
  match a with
  | ⟨0, _⟩ => show win2_4.index t (0 : Fin 2) * 1 + 1 * z.val = z.val; omega
  | ⟨1, _⟩ => show win2_4.index t (1 : Fin 2) * 128 + 1 * q.val = q.val; omega
theorem emb2_5 (t : Fin cfg2.N) (p : Fin 2000) (q : Fin 128) (hr : t.val * 2000 + p.val < 50000) :
    ((cfg2.win 5).blk t).view.emb (ix2 p q) = ix2 (⟨t.val * 2000 + p.val, hr⟩ : Fin 50000) q := by
  obtain ⟨-, -, -, -, -, -, -, -, -, -, e50, e51⟩ := idx_facts2 t
  funext a; apply Fin.ext
  match a with
  | ⟨0, _⟩ => show win2_5.index t (0 : Fin 2) * 2000 + 1 * p.val = t.val * 2000 + p.val; omega
  | ⟨1, _⟩ => show win2_5.index t (1 : Fin 2) * 128 + 1 * q.val = q.val; omega

variable (V : (c : Dev nD) → (b : Ref sig .tc) → Buf (Elt Ideal) ((c : Thread nD τ).loc b))

/-- What point `t` writes back is block `t` of `regionOut2` of the arrays as the region finds them. -/
theorem flushed2_eq (c : Dev nD) (t : Fin cfg2.N) :
    (dat2 V c).flushed 5 t = ((cfg2.win 5).blk t).view.read (Elt Ideal)
      (regionOut2 (V c main_v27) (V c main_v39) (V c main_arg9) (V c main_arg10) (V c main_v40)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x128) hz2, View.ld_unit_zero (S := S1x128) hz2]
  funext j
  obtain ⟨p, q, rfl⟩ : ∃ (p : Fin 2000) (q : Fin 128), j = ix2 p q := ⟨j 0, j 1, eq_ix2 j⟩
  have hr : t.val * 2000 + p.val < 50000 := by have := t_lt2 t; have := p.isLt; omega
  rw [View.read_apply]
  show k2_pay1 (iblk2 V c 0 t) (iblk2 V c 1 t) (iblk2 V c 2 t) (iblk2 V c 3 t) (iblk2 V c 4 t) (ix2 p q)
    = regionOut2 (V c main_v27) (V c main_v39) (V c main_arg9) (V c main_arg10) (V c main_v40) (((cfg2.win 5).blk t).view.emb (ix2 p q))
  rw [emb2_5 t p q hr]
  show _ = cell2 (V c main_v27) (V c main_v39) (V c main_arg9) (V c main_arg10) (V c main_v40) ⟨t.val * 2000 + p.val, hr⟩ q
  refine cell2_of_blocks (iblk2 V c 0 t) (iblk2 V c 1 t) (iblk2 V c 2 t) (iblk2 V c 3 t) (iblk2 V c 4 t)
    (V c main_v27) (V c main_v39) (V c main_arg9) (V c main_arg10) (V c main_v40) p q ⟨t.val * 2000 + p.val, hr⟩
    (fun k => ?_) (fun k => ?_) (fun k => ?_) (fun k => ?_) ?_
  · show V c main_v27 (((cfg2.win 0).blk t).view.emb (ix2 p k)) = _; rw [emb2_0 t p k hr]
  · show V c main_v39 (((cfg2.win 1).blk t).view.emb (ix2 p k)) = _; rw [emb2_1 t p k hr]
  · show V c main_arg9 (((cfg2.win 2).blk t).view.emb (ix2 k q)) = _; rw [emb2_2 t k q]
  · show V c main_arg10 (((cfg2.win 3).blk t).view.emb (ix2 k q)) = _; rw [emb2_3 t k q]
  · show V c main_v40 (((cfg2.win 4).blk t).view.emb (ix2 0 q)) = _; rw [emb2_4 t 0 q]

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v41).slice (win2_5.rect t)).set ↔ _
  rw [View.set_slice_whole, Rect.mem_set_unit]
  exact Iff.rfl

/-- Row `r` of the output lies in the block of point `r / 2000`: the 25 blocks of 2000 rows tile the 50000 rows. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, -, -, -, -, e50, e51⟩ := idx_facts2 t
  have ht : t.val = (i 0).val / 2000 := rfl
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The third region's output array after the region. -/
theorem final2 (c : Dev nD) :
    (dat2 V c).arrAt 5 cfg2.N = regionOut2 (V c main_v27) (V c main_v39) (V c main_arg9) (V c main_arg10) (V c main_v40) :=
  (dat2 V c).arrAt_eq_of_cover 5 _ (fun t _ => flushed2_eq V c t) cover2

/-- With the bias row the bias vector viewed as one row, the region's function is the last layer's dense part: entry by
    entry both are the two row-by-column sums plus the bias entry. -/
theorem regionOut2_spec (h n : S50000x256.Idx → EReal) (ws wn : S256x128.Idx → EReal) (b : S128.Idx → EReal) :
    regionOut2 h n ws wn (shapeCast S1x128 b Facts₀.shapeCasts_S128_S1x128) = dense2 (F := Ideal) h n ws wn b := by
  funext i
  obtain ⟨r, q, rfl⟩ : ∃ (r : Fin 50000) (q : Fin 128), i = ix2 r q := ⟨i 0, i 1, eq_ix2 i⟩
  rw [dense2_apply]
  show cell2 h n ws wn _ r q = _
  unfold cell2
  rw [biasRow128_apply]

end Cert.Sage

end
-- ==== Proof.KerValue.lean ====
/-
  The kernel program's result array is the network of the launch arguments.

  The buffer contents at the boundaries of @main are a fold from the launch memory. Walking it: before each region
  the host computes the mean over incoming edges of the current features and views the layer's bias as one row, and
  writes nothing else a region takes; each region's output array is then the layer's function of the region's five
  input arrays (the region modules); an argument array is never written. So after the third region the result buffer
  holds `net` of the twelve launch arguments.
-/
import proofs.«142392_j26560077759064_1_alg».proof.Proof.Gen.KernelIdeal.Frame
import proofs.«142392_j26560077759064_1_alg».proof.Proof.Gen.ReferenceIdeal
import proofs.«142392_j26560077759064_1_alg».proof.Proof.Spec
import proofs.«142392_j26560077759064_1_alg».proof.Proof.Region0
import proofs.«142392_j26560077759064_1_alg».proof.Proof.Region1
import proofs.«142392_j26560077759064_1_alg».proof.Proof.Region2
import Idealize.ShloMosaic.Lib.StableHlo.Run

set_option maxRecDepth 16384

noncomputable section

namespace Cert.Sage

open Idealize.ShloMosaic Idealize.ShloMosaic.StableHlo Idealize.ShloMosaic.TcCoe
open Idealize.SL Idealize.SL.Sem
open Cert.KernelIdeal Cert.KernelIdeal.Gen
open Cert.KernelIdeal.Facts₀ Cert.KernelIdeal.Facts

/-- No operation of a stretch writes the buffer. -/
macro "no_write" ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

variable (Wb : Valuation τ sig (Elt Ideal))

/-! ## The three stretches of host operations, read at the buffers the regions take

Before each region the host gathers the current features along the edges, sums them into the destination nodes,
divides by the degree (`meanAgg…`), and views the layer's bias as a one-row array; every other buffer a region
takes is not written by the stretch. -/

/-- Contents carried to a typed reference's buffer type and back are unchanged. -/
theorem ofBuf_toBuf {Val : EltTy → Type} {T : BufTy} (x : StableHlo.TRef sig T) (v : T.Contents Val) : x.ofBuf (x.toBuf v) = v := by
  obtain ⟨r, rfl, h2, h3⟩ := x
  rfl

/-! A typed reference at a buffer whose type is the stated one carries contents unchanged. -/
theorem cast_src (h1 h2 h3) : (StableHlo.TRef.of (T := ⟨S800000, .i32⟩) main_arg1 h1 h2 h3).ofBuf (Wb (Proc.devRef .tc main_arg1)) = Wb (Proc.devRef .tc main_arg1) := rfl
theorem cast_x (h1 h2 h3) : (StableHlo.TRef.of (T := ⟨S50000x128, .f32⟩) main_arg0 h1 h2 h3).ofBuf (Wb (Proc.devRef .tc main_arg0)) = Wb (Proc.devRef .tc main_arg0) := rfl
theorem cast_h1 (h1 h2 h3) : (StableHlo.TRef.of (T := ⟨S50000x256, .f32⟩) main_v13 h1 h2 h3).ofBuf (Wb (Proc.devRef .tc main_v13)) = Wb (Proc.devRef .tc main_v13) := rfl
theorem cast_h2 (h1 h2 h3) : (StableHlo.TRef.of (T := ⟨S50000x256, .f32⟩) main_v27 h1 h2 h3).ofBuf (Wb (Proc.devRef .tc main_v27)) = Wb (Proc.devRef .tc main_v27) := rfl
theorem cast_rows0 (h1 h2 h3) (x : (⟨S800000x128, .f32⟩ : BufTy).Contents (Elt Ideal)) : (StableHlo.TRef.of (T := ⟨S800000x128, .f32⟩) main_v0 h1 h2 h3).toBuf x = x := rfl
theorem cast_rows1 (h1 h2 h3) (x : (⟨S800000x256, .f32⟩ : BufTy).Contents (Elt Ideal)) : (StableHlo.TRef.of (T := ⟨S800000x256, .f32⟩) main_v14 h1 h2 h3).toBuf x = x := rfl
theorem cast_rows2 (h1 h2 h3) (x : (⟨S800000x256, .f32⟩ : BufTy).Contents (Elt Ideal)) : (StableHlo.TRef.of (T := ⟨S800000x256, .f32⟩) main_v28 h1 h2 h3).toBuf x = x := rfl

attribute [local irreducible] Host.gather Host.scatterAdd Host.reduce Host.divf in
/-- Before the first region: the aggregated features are the mean over incoming edges of the launch features. -/
theorem stretch0_agg : StableHlo.after (hostOps0_1 (F := Ideal)) (StableHlo.after (hostOps0 (F := Ideal)) Wb) (Proc.devRef .tc main_v11)
    = meanAgg128 (F := Ideal) (Wb (Proc.devRef .tc main_arg0)) (Wb (Proc.devRef .tc main_arg1)) (Wb (Proc.devRef .tc main_arg2)) := by
  after_results_simp
  simp only [ofBuf_toBuf, cast_src, cast_x, cast_rows0]
  unfold meanAgg128 gatherRows128 srcInRange srcRow degree
  rfl
/-- Before the first region: the bias row is the bias vector viewed as one row. -/
theorem stretch0_bias : StableHlo.after (hostOps0_1 (F := Ideal)) (StableHlo.after (hostOps0 (F := Ideal)) Wb) (Proc.devRef .tc main_v12)
    = shapeCast S1x256 (Wb (Proc.devRef .tc main_arg5)) Facts₀.shapeCasts_S256_S1x256 := by
  after_results_simp
  rfl

attribute [local irreducible] Host.gather Host.scatterAdd Host.reduce Host.divf in
/-- Before the second region: the mean over incoming edges of the first region's output. -/
theorem stretch1_agg : StableHlo.after (hostOps1_1 (F := Ideal)) (StableHlo.after (hostOps1 (F := Ideal)) Wb) (Proc.devRef .tc main_v25)
    = meanAgg256 (F := Ideal) (Wb (Proc.devRef .tc main_v13)) (Wb (Proc.devRef .tc main_arg1)) (Wb (Proc.devRef .tc main_arg2)) := by
  after_results_simp
  simp only [ofBuf_toBuf, cast_src, cast_h1, cast_rows1]
  unfold meanAgg256 gatherRows256 srcInRange srcRow degree
  rfl
theorem stretch1_bias : StableHlo.after (hostOps1_1 (F := Ideal)) (StableHlo.after (hostOps1 (F := Ideal)) Wb) (Proc.devRef .tc main_v26)
    = shapeCast S1x256 (Wb (Proc.devRef .tc main_arg8)) Facts₀.shapeCasts_S256_S1x256 := by
  after_results_simp
  rfl

attribute [local irreducible] Host.gather Host.scatterAdd Host.reduce Host.divf in
/-- Before the third region: the mean over incoming edges of the second region's output. -/
theorem stretch2_agg : StableHlo.after (hostOps2_1 (F := Ideal)) (StableHlo.after (hostOps2 (F := Ideal)) Wb) (Proc.devRef .tc main_v39)
    = meanAgg256 (F := Ideal) (Wb (Proc.devRef .tc main_v27)) (Wb (Proc.devRef .tc main_arg1)) (Wb (Proc.devRef .tc main_arg2)) := by
  after_results_simp
  simp only [ofBuf_toBuf, cast_src, cast_h2, cast_rows2]
  unfold meanAgg256 gatherRows256 srcInRange srcRow degree
  rfl
theorem stretch2_bias : StableHlo.after (hostOps2_1 (F := Ideal)) (StableHlo.after (hostOps2 (F := Ideal)) Wb) (Proc.devRef .tc main_v40)
    = shapeCast S1x128 (Wb (Proc.devRef .tc main_arg11)) Facts₀.shapeCasts_S128_S1x128 := by
  after_results_simp
  rfl

/-- A buffer neither list of a stretch writes holds after the stretch what it held before. -/
theorem keep2 (opsA opsB : List (HloOp τ sig (Elt Ideal))) (b : DevRef τ sig)
    (hA : ∀ op ∈ opsA, b ∉ op.writes) (hB : ∀ op ∈ opsB, b ∉ op.writes) :
    StableHlo.after opsB (StableHlo.after opsA Wb) b = Wb b :=
  (StableHlo.after_of_forall_not_mem opsB _ hB).trans (StableHlo.after_of_forall_not_mem opsA _ hA)

variable (m : (ℓ : Loc nD τ sig) → Buf (Elt Ideal) ℓ) (ρ : Dev nD → PrngReg)

/-! ## The first layer -/

theorem entry0_x (c : Dev nD) : V2 m ρ c main_arg0 = m ((c : Thread nD τ).loc main_arg0) :=
  keep2 (W0 m ρ c) hostOps0 hostOps0_1 (Proc.devRef .tc main_arg0) (by no_write hostOps0) (by no_write hostOps0_1)
theorem entry0_ws (c : Dev nD) : V2 m ρ c main_arg3 = m ((c : Thread nD τ).loc main_arg3) :=
  keep2 (W0 m ρ c) hostOps0 hostOps0_1 (Proc.devRef .tc main_arg3) (by no_write hostOps0) (by no_write hostOps0_1)
theorem entry0_wn (c : Dev nD) : V2 m ρ c main_arg4 = m ((c : Thread nD τ).loc main_arg4) :=
  keep2 (W0 m ρ c) hostOps0 hostOps0_1 (Proc.devRef .tc main_arg4) (by no_write hostOps0) (by no_write hostOps0_1)
theorem entry0_agg (c : Dev nD) : V2 m ρ c main_v11
    = meanAgg128 (F := Ideal) (m ((c : Thread nD τ).loc main_arg0)) (m ((c : Thread nD τ).loc main_arg1)) (m ((c : Thread nD τ).loc main_arg2)) :=
  stretch0_agg (W0 m ρ c)
theorem entry0_bias (c : Dev nD) : V2 m ρ c main_v12 = shapeCast S1x256 (m ((c : Thread nD τ).loc main_arg5)) Facts₀.shapeCasts_S256_S1x256 :=
  stretch0_bias (W0 m ρ c)

/-- After the first region its output array holds the first layer's output. -/
theorem out0 (c : Dev nD) : W3 m ρ c (Proc.devRef .tc main_v13)
    = hidden1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W3_arr m ρ c 5).trans ?_
  rw [final0 (V2 m ρ) c, entry0_x m ρ c, entry0_ws m ρ c, entry0_wn m ρ c, entry0_agg m ρ c, entry0_bias m ρ c, regionOut0_spec]
  rfl

/-- An argument the first region does not take is, after it, as launched. -/
theorem W3_keep (c : Dev nD) (b : Ref sig .tc) (hb : ∀ w, Pipeline.arrRef spec0 w ≠ b)
    (hA : ∀ op ∈ (hostOps0 (F := Ideal)), (Proc.devRef .tc b : DevRef τ sig) ∉ op.writes)
    (hB : ∀ op ∈ (hostOps0_1 (F := Ideal)), (Proc.devRef .tc b : DevRef τ sig) ∉ op.writes) :
    W3 m ρ c (Proc.devRef .tc b) = m ((c : Thread nD τ).loc b) :=
  (W3_of_ne m ρ c b hb).trans (keep2 (W0 m ρ c) hostOps0 hostOps0_1 (Proc.devRef .tc b) hA hB)

theorem W3_src (c : Dev nD) : W3 m ρ c (Proc.devRef .tc main_arg1) = m ((c : Thread nD τ).loc main_arg1) :=
  W3_keep m ρ c main_arg1 (by decide) (by no_write hostOps0) (by no_write hostOps0_1)
theorem W3_dst (c : Dev nD) : W3 m ρ c (Proc.devRef .tc main_arg2) = m ((c : Thread nD τ).loc main_arg2) :=
  W3_keep m ρ c main_arg2 (by decide) (by no_write hostOps0) (by no_write hostOps0_1)
theorem W3_ws1 (c : Dev nD) : W3 m ρ c (Proc.devRef .tc main_arg6) = m ((c : Thread nD τ).loc main_arg6) :=
  W3_keep m ρ c main_arg6 (by decide) (by no_write hostOps0) (by no_write hostOps0_1)
theorem W3_wn1 (c : Dev nD) : W3 m ρ c (Proc.devRef .tc main_arg7) = m ((c : Thread nD τ).loc main_arg7) :=
  W3_keep m ρ c main_arg7 (by decide) (by no_write hostOps0) (by no_write hostOps0_1)
theorem W3_b1 (c : Dev nD) : W3 m ρ c (Proc.devRef .tc main_arg8) = m ((c : Thread nD τ).loc main_arg8) :=
  W3_keep m ρ c main_arg8 (by decide) (by no_write hostOps0) (by no_write hostOps0_1)
theorem W3_ws2 (c : Dev nD) : W3 m ρ c (Proc.devRef .tc main_arg9) = m ((c : Thread nD τ).loc main_arg9) :=
  W3_keep m ρ c main_arg9 (by decide) (by no_write hostOps0) (by no_write hostOps0_1)
theorem W3_wn2 (c : Dev nD) : W3 m ρ c (Proc.devRef .tc main_arg10) = m ((c : Thread nD τ).loc main_arg10) :=
  W3_keep m ρ c main_arg10 (by decide) (by no_write hostOps0) (by no_write hostOps0_1)
theorem W3_b2 (c : Dev nD) : W3 m ρ c (Proc.devRef .tc main_arg11) = m ((c : Thread nD τ).loc main_arg11) :=
  W3_keep m ρ c main_arg11 (by decide) (by no_write hostOps0) (by no_write hostOps0_1)

/-! ## The middle layer -/

/-- The first layer's output, as one function of the launch arguments on core `c`. -/
abbrev h1 (c : Dev nD) : FVec Ideal Cert.ReferenceIdeal.S50000x256 .f32 :=
  hidden1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem entry1_h (c : Dev nD) : V5 m ρ c main_v13 = h1 m c :=
  (keep2 (W3 m ρ c) hostOps1 hostOps1_1 (Proc.devRef .tc main_v13) (by no_write hostOps1) (by no_write hostOps1_1)).trans (out0 m ρ c)
theorem entry1_ws (c : Dev nD) : V5 m ρ c main_arg6 = m ((c : Thread nD τ).loc main_arg6) :=
  (keep2 (W3 m ρ c) hostOps1 hostOps1_1 (Proc.devRef .tc main_arg6) (by no_write hostOps1) (by no_write hostOps1_1)).trans (W3_ws1 m ρ c)
theorem entry1_wn (c : Dev nD) : V5 m ρ c main_arg7 = m ((c : Thread nD τ).loc main_arg7) :=
  (keep2 (W3 m ρ c) hostOps1 hostOps1_1 (Proc.devRef .tc main_arg7) (by no_write hostOps1) (by no_write hostOps1_1)).trans (W3_wn1 m ρ c)
theorem entry1_agg (c : Dev nD) : V5 m ρ c main_v25 = meanAgg256 (F := Ideal) (h1 m c) (m ((c : Thread nD τ).loc main_arg1)) (m ((c : Thread nD τ).loc main_arg2)) := by
  refine (stretch1_agg (W3 m ρ c)).trans ?_
  rw [out0 m ρ c, W3_src m ρ c, W3_dst m ρ c]
theorem entry1_bias (c : Dev nD) : V5 m ρ c main_v26 = shapeCast S1x256 (m ((c : Thread nD τ).loc main_arg8)) Facts₀.shapeCasts_S256_S1x256 := by
  refine (stretch1_bias (W3 m ρ c)).trans ?_
  rw [W3_b1 m ρ c]

/-- After the second region its output array holds the middle layer's output. -/
theorem out1 (c : Dev nD) : W6 m ρ c (Proc.devRef .tc main_v27)
    = hidden2 (F := Ideal) (h1 m c) (m ((c : Thread nD τ).loc main_arg1)) (m ((c : Thread nD τ).loc main_arg2)) (m ((c : Thread nD τ).loc main_arg6)) (m ((c : Thread nD τ).loc main_arg7)) (m ((c : Thread nD τ).loc main_arg8)) := by
  refine (W6_arr m ρ c 5).trans ?_
  rw [final1 (V5 m ρ) c, entry1_h m ρ c, entry1_ws m ρ c, entry1_wn m ρ c, entry1_agg m ρ c, entry1_bias m ρ c, regionOut1_spec]
  rfl

/-- An argument neither of the first two regions takes is, after the second, as launched. -/
theorem W6_keep (c : Dev nD) (b : Ref sig .tc) (hb : ∀ w, Pipeline.arrRef spec1 w ≠ b)
    (hA : ∀ op ∈ (hostOps1 (F := Ideal)), (Proc.devRef .tc b : DevRef τ sig) ∉ op.writes)
    (hB : ∀ op ∈ (hostOps1_1 (F := Ideal)), (Proc.devRef .tc b : DevRef τ sig) ∉ op.writes)
    (h3 : W3 m ρ c (Proc.devRef .tc b) = m ((c : Thread nD τ).loc b)) :
    W6 m ρ c (Proc.devRef .tc b) = m ((c : Thread nD τ).loc b) :=
  ((W6_of_ne m ρ c b hb).trans (keep2 (W3 m ρ c) hostOps1 hostOps1_1 (Proc.devRef .tc b) hA hB)).trans h3

theorem W6_src (c : Dev nD) : W6 m ρ c (Proc.devRef .tc main_arg1) = m ((c : Thread nD τ).loc main_arg1) :=
  W6_keep m ρ c main_arg1 (by decide) (by no_write hostOps1) (by no_write hostOps1_1) (W3_src m ρ c)
theorem W6_dst (c : Dev nD) : W6 m ρ c (Proc.devRef .tc main_arg2) = m ((c : Thread nD τ).loc main_arg2) :=
  W6_keep m ρ c main_arg2 (by decide) (by no_write hostOps1) (by no_write hostOps1_1) (W3_dst m ρ c)
theorem W6_ws2 (c : Dev nD) : W6 m ρ c (Proc.devRef .tc main_arg9) = m ((c : Thread nD τ).loc main_arg9) :=
  W6_keep m ρ c main_arg9 (by decide) (by no_write hostOps1) (by no_write hostOps1_1) (W3_ws2 m ρ c)
theorem W6_wn2 (c : Dev nD) : W6 m ρ c (Proc.devRef .tc main_arg10) = m ((c : Thread nD τ).loc main_arg10) :=
  W6_keep m ρ c main_arg10 (by decide) (by no_write hostOps1) (by no_write hostOps1_1) (W3_wn2 m ρ c)
theorem W6_b2 (c : Dev nD) : W6 m ρ c (Proc.devRef .tc main_arg11) = m ((c : Thread nD τ).loc main_arg11) :=
  W6_keep m ρ c main_arg11 (by decide) (by no_write hostOps1) (by no_write hostOps1_1) (W3_b2 m ρ c)

/-! ## The last layer -/

/-- The middle layer's output, as one function of the launch arguments on core `c`. -/
abbrev h2 (c : Dev nD) : FVec Ideal Cert.ReferenceIdeal.S50000x256 .f32 :=
  hidden2 (F := Ideal) (h1 m c) (m ((c : Thread nD τ).loc main_arg1)) (m ((c : Thread nD τ).loc main_arg2)) (m ((c : Thread nD τ).loc main_arg6)) (m ((c : Thread nD τ).loc main_arg7)) (m ((c : Thread nD τ).loc main_arg8))

theorem entry2_h (c : Dev nD) : V8 m ρ c main_v27 = h2 m c :=
  (keep2 (W6 m ρ c) hostOps2 hostOps2_1 (Proc.devRef .tc main_v27) (by no_write hostOps2) (by no_write hostOps2_1)).trans (out1 m ρ c)
theorem entry2_ws (c : Dev nD) : V8 m ρ c main_arg9 = m ((c : Thread nD τ).loc main_arg9) :=
  (keep2 (W6 m ρ c) hostOps2 hostOps2_1 (Proc.devRef .tc main_arg9) (by no_write hostOps2) (by no_write hostOps2_1)).trans (W6_ws2 m ρ c)
theorem entry2_wn (c : Dev nD) : V8 m ρ c main_arg10 = m ((c : Thread nD τ).loc main_arg10) :=
  (keep2 (W6 m ρ c) hostOps2 hostOps2_1 (Proc.devRef .tc main_arg10) (by no_write hostOps2) (by no_write hostOps2_1)).trans (W6_wn2 m ρ c)
theorem entry2_agg (c : Dev nD) : V8 m ρ c main_v39 = meanAgg256 (F := Ideal) (h2 m c) (m ((c : Thread nD τ).loc main_arg1)) (m ((c : Thread nD τ).loc main_arg2)) := by
  refine (stretch2_agg (W6 m ρ c)).trans ?_
  rw [out1 m ρ c, W6_src m ρ c, W6_dst m ρ c]
theorem entry2_bias (c : Dev nD) : V8 m ρ c main_v40 = shapeCast S1x128 (m ((c : Thread nD τ).loc main_arg11)) Facts₀.shapeCasts_S128_S1x128 := by
  refine (stretch2_bias (W6 m ρ c)).trans ?_
  rw [W6_b2 m ρ c]

/-- After the third region the result array holds the whole network of the launch arguments. -/
theorem result_eq (c : Dev nD) : W9 m ρ c (Proc.devRef .tc main_v41)
    = net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W9_arr m ρ c 5).trans ?_
  rw [final2 (V8 m ρ) c, entry2_h m ρ c, entry2_ws m ρ c, entry2_wn m ρ c, entry2_agg m ρ c, entry2_bias m ρ c, regionOut2_spec]
  rfl

end Cert.Sage

end
-- ==== Proof.RefRun.lean ====
/-
  The reference program's run, read back as the network of the specification.

  @main is a straight line of 138 host operations: each of the three layers is the gather of the rows at the
  edges' sources, the scatter-add of those rows and of ones at the edges' targets, the division by the degree,
  two matrix products, their sum and the bias (and, for the first two layers, the maximum with zero). The line is
  cut after the first layer's output and after the second's. For each stretch, from ANY contents of the device's
  buffers: its output buffer ends at the layer's function of the buffers it reads, and every buffer it does not
  write is left as it was. Composing the three gives the result buffer at `net` of the twelve argument arrays,
  the arguments unchanged; the run theorem of a straight line then states it of every execution.
-/
import proofs.«142392_j26560077759064_1_alg».proof.Proof.Spec
import Idealize.ShloMosaic.Lib.StableHlo.Run

noncomputable section

namespace Cert.Sage.Ref

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The first layer's operations, in order: the gather of the rows at the edges' sources (the index
    wrapped once and tested for range, the fill where it is out of range), the scatter-add of those rows
    and of ones at the edges' targets, the division by the degree, the two matrix products, their sum,
    the bias, and the maximum with zero. A called function's operations stand at its call, each at the
    buffer the call names for it. -/
abbrev ops0 : List (HloOp τ sig (Elt F)) :=
  [ StableHlo.nullary main_call0_c (constantI S_ 32 0#32 : (⟨S_, .i32⟩ : BufTy).Contents (Elt F)),
    StableHlo.unary main_call0_c main_call0_v0 ((broadcastInDim S800000 ![] bcast_S_S800000) : (⟨S_, .i32⟩ : BufTy).Contents (Elt F) → (⟨S800000, .i32⟩ : BufTy).Contents (Elt F)),
    StableHlo.binary main_arg1 main_call0_v0 main_call0_v1 ((cmpi .slt) : (⟨S800000, .i32⟩ : BufTy).Contents (Elt F) → (⟨S800000, .i32⟩ : BufTy).Contents (Elt F) → (⟨S800000, .i1⟩ : BufTy).Contents (Elt F)),
    StableHlo.nullary main_call0_c_0 (constantI S_ 32 50000#32 : (⟨S_, .i32⟩ : BufTy).Contents (Elt F)),
    StableHlo.unary main_call0_c_0 main_call0_v2 ((broadcastInDim S800000 ![] bcast_S_S800000) : (⟨S_, .i32⟩ : BufTy).Contents (Elt F) → (⟨S800000, .i32⟩ : BufTy).Contents (Elt F)),
    StableHlo.binary main_arg1 main_call0_v2 main_call0_v3 (addi : (⟨S800000, .i32⟩ : BufTy).Contents (Elt F) → (⟨S800000, .i32⟩ : BufTy).Contents (Elt F) → (⟨S800000, .i32⟩ : BufTy).Contents (Elt F)),
    StableHlo.ternary main_call0_v1 main_call0_v3 main_arg1 main_call0_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call0_v4 main_call0_v5 ((broadcastInDim S800000x1 ![0] bcast_S800000_S800000x1_0) : (⟨S800000, .i32⟩ : BufTy).Contents (Elt F) → (⟨S800000x1, .i32⟩ : BufTy).Contents (Elt F)),
    StableHlo.nullary main_call0_c_1 (constantI S1 32 49999#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 ((broadcastInDim S800000x1 ![] bcast_S_S800000x1) : (⟨S_, .i32⟩ : BufTy).Contents (Elt F) → (⟨S800000x1, .i32⟩ : BufTy).Contents (Elt F)),
    StableHlo.binary main_call0_v5 main_call0_v6 main_call0_v7 ((cmpi .sge) : (⟨S800000x1, .i32⟩ : BufTy).Contents (Elt F) → (⟨S800000x1, .i32⟩ : BufTy).Contents (Elt F) → (⟨S800000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S800000x1 ![0, 1] bcast_S1x1_S800000x1_0_1) : (⟨S1x1, .i32⟩ : BufTy).Contents (Elt F) → (⟨S800000x1, .i32⟩ : BufTy).Contents (Elt F)),
    StableHlo.binary main_call0_v5 main_call0_v9 main_call0_v10 ((cmpi .sle) : (⟨S800000x1, .i32⟩ : BufTy).Contents (Elt F) → (⟨S800000x1, .i32⟩ : BufTy).Contents (Elt F) → (⟨S800000x1, .i1⟩ : BufTy).Contents (Elt F)),
    StableHlo.binary main_call0_v7 main_call0_v10 main_call0_v11 (andi : (⟨S800000x1, .i1⟩ : BufTy).Contents (Elt F) → (⟨S800000x1, .i1⟩ : BufTy).Contents (Elt F) → (⟨S800000x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_arg0 main_call0_v5 main_call0_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call0_v12 main_call0_v14 ((broadcastInDim S800000x128 ![0] bcast_S800000_S800000x128_0) : (⟨S800000, .i1⟩ : BufTy).Contents (Elt F) → (⟨S800000x128, .i1⟩ : BufTy).Contents (Elt F)),
    StableHlo.nullary main_call0_cst (constant S_ .f32 0x7FC00000#32 : (⟨S_, .f32⟩ : BufTy).Contents (Elt F)),
    StableHlo.unary main_call0_cst main_call0_v15 ((broadcastInDim S800000x128 ![] bcast_S_S800000x128) : (⟨S_, .f32⟩ : BufTy).Contents (Elt F) → (⟨S800000x128, .f32⟩ : BufTy).Contents (Elt F)),
    StableHlo.ternary main_call0_v14 main_call0_v13 main_call0_v15 main_v0 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v1 (broadcastInDim S50000x128 ![] bcast_S_S50000x128 : (⟨S_, .f32⟩ : BufTy).Contents (Elt F) → (⟨S50000x128, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_0 (constant S_ .f32 0x3F800000#32),
    StableHlo.unary main_cst_0 main_v4 (broadcastInDim S800000x1 ![] bcast_S_S800000x1 : (⟨S_, .f32⟩ : BufTy).Contents (Elt F) → (⟨S800000x1, .f32⟩ : BufTy).Contents (Elt F)),
    StableHlo.nullary main_cst_1 (constant S_ .f32 0x00000000#32),
    StableHlo.unary main_cst_1 main_v5 (broadcastInDim S50000x1 ![] bcast_S_S50000x1 : (⟨S_, .f32⟩ : BufTy).Contents (Elt F) → (⟨S50000x1, .f32⟩ : BufTy).Contents (Elt F)),
    StableHlo.unary main_arg2 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_2 (constant S_ .f32 0x3F800000#32),
    StableHlo.unary main_cst_2 main_v8 (broadcastInDim S50000x1 ![] bcast_S_S50000x1 : (⟨S_, .f32⟩ : BufTy).Contents (Elt F) → (⟨S50000x1, .f32⟩ : BufTy).Contents (Elt F)),
    StableHlo.binary main_v7 main_v8 main_v9 (maximumf : (⟨S50000x1, .f32⟩ : BufTy).Contents (Elt F) → (⟨S50000x1, .f32⟩ : BufTy).Contents (Elt F) → (⟨S50000x1, .f32⟩ : BufTy).Contents (Elt F)),
    StableHlo.unary main_v9 main_v10 (broadcastInDim S50000x128 ![0, 1] bcast_S50000x1_S50000x128_0_1 : (⟨S50000x1, .f32⟩ : BufTy).Contents (Elt F) → (⟨S50000x128, .f32⟩ : BufTy).Contents (Elt F)),
    StableHlo.binary main_v3 main_v10 main_v11 (Host.divf : (⟨S50000x128, .f32⟩ : BufTy).Contents (Elt F) → (⟨S50000x128, .f32⟩ : BufTy).Contents (Elt F) → (⟨S50000x128, .f32⟩ : BufTy).Contents (Elt F)),
    StableHlo.binary main_arg0 main_arg3 main_v12 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v11 main_arg4 main_v13 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v12 main_v13 main_v14 (addf : (⟨S50000x256, .f32⟩ : BufTy).Contents (Elt F) → (⟨S50000x256, .f32⟩ : BufTy).Contents (Elt F) → (⟨S50000x256, .f32⟩ : BufTy).Contents (Elt F)),
    StableHlo.unary main_arg5 main_v15 (broadcastInDim S1x256 ![1] bcast_S256_S1x256_1 : (⟨S256, .f32⟩ : BufTy).Contents (Elt F) → (⟨S1x256, .f32⟩ : BufTy).Contents (Elt F)),
    StableHlo.unary main_v15 main_v16 (broadcastInDim S50000x256 ![0, 1] bcast_S1x256_S50000x256_0_1 : (⟨S1x256, .f32⟩ : BufTy).Contents (Elt F) → (⟨S50000x256, .f32⟩ : BufTy).Contents (Elt F)),
    StableHlo.binary main_v14 main_v16 main_v17 (addf : (⟨S50000x256, .f32⟩ : BufTy).Contents (Elt F) → (⟨S50000x256, .f32⟩ : BufTy).Contents (Elt F) → (⟨S50000x256, .f32⟩ : BufTy).Contents (Elt F)),
    StableHlo.nullary main_call1_cst (constant S_ .f32 0x00000000#32 : (⟨S_, .f32⟩ : BufTy).Contents (Elt F)),
    StableHlo.unary main_call1_cst main_call1_v0 ((broadcastInDim S50000x256 ![] bcast_S_S50000x256) : (⟨S_, .f32⟩ : BufTy).Contents (Elt F) → (⟨S50000x256, .f32⟩ : BufTy).Contents (Elt F)),
    StableHlo.binary main_v17 main_call1_v0 main_v18 (maximumf : (⟨S50000x256, .f32⟩ : BufTy).Contents (Elt F) → (⟨S50000x256, .f32⟩ : BufTy).Contents (Elt F) → (⟨S50000x256, .f32⟩ : BufTy).Contents (Elt F)) ]

/-- The second layer's operations, in order: the same stretch from the first layer's output. -/
abbrev ops1 : List (HloOp τ sig (Elt F)) :=
  [ StableHlo.nullary main_call2_c (constantI S_ 32 0#32 : (⟨S_, .i32⟩ : BufTy).Contents (Elt F)),
    StableHlo.unary main_call2_c main_call2_v0 ((broadcastInDim S800000 ![] bcast_S_S800000) : (⟨S_, .i32⟩ : BufTy).Contents (Elt F) → (⟨S800000, .i32⟩ : BufTy).Contents (Elt F)),
    StableHlo.binary main_arg1 main_call2_v0 main_call2_v1 ((cmpi .slt) : (⟨S800000, .i32⟩ : BufTy).Contents (Elt F) → (⟨S800000, .i32⟩ : BufTy).Contents (Elt F) → (⟨S800000, .i1⟩ : BufTy).Contents (Elt F)),
    StableHlo.nullary main_call2_c_0 (constantI S_ 32 50000#32 : (⟨S_, .i32⟩ : BufTy).Contents (Elt F)),
    StableHlo.unary main_call2_c_0 main_call2_v2 ((broadcastInDim S800000 ![] bcast_S_S800000) : (⟨S_, .i32⟩ : BufTy).Contents (Elt F) → (⟨S800000, .i32⟩ : BufTy).Contents (Elt F)),
    StableHlo.binary main_arg1 main_call2_v2 main_call2_v3 (addi : (⟨S800000, .i32⟩ : BufTy).Contents (Elt F) → (⟨S800000, .i32⟩ : BufTy).Contents (Elt F) → (⟨S800000, .i32⟩ : BufTy).Contents (Elt F)),
    StableHlo.ternary main_call2_v1 main_call2_v3 main_arg1 main_call2_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call2_v4 main_call2_v5 ((broadcastInDim S800000x1 ![0] bcast_S800000_S800000x1_0) : (⟨S800000, .i32⟩ : BufTy).Contents (Elt F) → (⟨S800000x1, .i32⟩ : BufTy).Contents (Elt F)),
    StableHlo.nullary main_call2_c_1 (constantI S1 32 49999#32 : (⟨S1, .i32⟩ : BufTy).Contents (Elt F)),
    StableHlo.nullary main_call2_c_2 (constantI S_ 32 0#32 : (⟨S_, .i32⟩ : BufTy).Contents (Elt F)),
    StableHlo.unary main_call2_c_2 main_call2_v6 ((broadcastInDim S800000x1 ![] bcast_S_S800000x1) : (⟨S_, .i32⟩ : BufTy).Contents (Elt F) → (⟨S800000x1, .i32⟩ : BufTy).Contents (Elt F)),
    StableHlo.binary main_call2_v5 main_call2_v6 main_call2_v7 ((cmpi .sge) : (⟨S800000x1, .i32⟩ : BufTy).Contents (Elt F) → (⟨S800000x1, .i32⟩ : BufTy).Contents (Elt F) → (⟨S800000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S800000x1 ![0, 1] bcast_S1x1_S800000x1_0_1) : (⟨S1x1, .i32⟩ : BufTy).Contents (Elt F) → (⟨S800000x1, .i32⟩ : BufTy).Contents (Elt F)),
    StableHlo.binary main_call2_v5 main_call2_v9 main_call2_v10 ((cmpi .sle) : (⟨S800000x1, .i32⟩ : BufTy).Contents (Elt F) → (⟨S800000x1, .i32⟩ : BufTy).Contents (Elt F) → (⟨S800000x1, .i1⟩ : BufTy).Contents (Elt F)),
    StableHlo.binary main_call2_v7 main_call2_v10 main_call2_v11 (andi : (⟨S800000x1, .i1⟩ : BufTy).Contents (Elt F) → (⟨S800000x1, .i1⟩ : BufTy).Contents (Elt F) → (⟨S800000x1, .i1⟩ : BufTy).Contents (Elt F)),
    StableHlo.nullary main_call2_c_3 (constantI S_ 1 1#1 : (⟨S_, .i1⟩ : BufTy).Contents (Elt F)),
    StableHlo.binary main_call2_v11 main_call2_c_3 main_call2_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_v18 main_call2_v5 main_call2_v13 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_call2_v12 main_call2_v14 ((broadcastInDim S800000x256 ![0] bcast_S800000_S800000x256_0) : (⟨S800000, .i1⟩ : BufTy).Contents (Elt F) → (⟨S800000x256, .i1⟩ : BufTy).Contents (Elt F)),
    StableHlo.nullary main_call2_cst (constant S_ .f32 0x7FC00000#32 : (⟨S_, .f32⟩ : BufTy).Contents (Elt F)),
    StableHlo.unary main_call2_cst main_call2_v15 ((broadcastInDim S800000x256 ![] bcast_S_S800000x256) : (⟨S_, .f32⟩ : BufTy).Contents (Elt F) → (⟨S800000x256, .f32⟩ : BufTy).Contents (Elt F)),
    StableHlo.ternary main_call2_v14 main_call2_v13 main_call2_v15 main_v19 (select : (⟨S800000x256, .i1⟩ : BufTy).Contents (Elt F) → (⟨S800000x256, .f32⟩ : BufTy).Contents (Elt F) → (⟨S800000x256, .f32⟩ : BufTy).Contents (Elt F) → (⟨S800000x256, .f32⟩ : BufTy).Contents (Elt F)),
    StableHlo.nullary main_cst_3 (constant S_ .f32 0x00000000#32),
    StableHlo.unary main_cst_3 main_v20 (broadcastInDim S50000x256 ![] bcast_S_S50000x256 : (⟨S_, .f32⟩ : BufTy).Contents (Elt F) → (⟨S50000x256, .f32⟩ : BufTy).Contents (Elt F)),
    StableHlo.unary main_arg2 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_4 (constant S_ .f32 0x3F800000#32),
    StableHlo.unary main_cst_4 main_v23 (broadcastInDim S800000x1 ![] bcast_S_S800000x1 : (⟨S_, .f32⟩ : BufTy).Contents (Elt F) → (⟨S800000x1, .f32⟩ : BufTy).Contents (Elt F)),
    StableHlo.nullary main_cst_5 (constant S_ .f32 0x00000000#32),
    StableHlo.unary main_cst_5 main_v24 (broadcastInDim S50000x1 ![] bcast_S_S50000x1 : (⟨S_, .f32⟩ : BufTy).Contents (Elt F) → (⟨S50000x1, .f32⟩ : BufTy).Contents (Elt F)),
    StableHlo.unary main_arg2 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_6 (constant S_ .f32 0x3F800000#32),
    StableHlo.unary main_cst_6 main_v27 (broadcastInDim S50000x1 ![] bcast_S_S50000x1 : (⟨S_, .f32⟩ : BufTy).Contents (Elt F) → (⟨S50000x1, .f32⟩ : BufTy).Contents (Elt F)),
    StableHlo.binary main_v26 main_v27 main_v28 (maximumf : (⟨S50000x1, .f32⟩ : BufTy).Contents (Elt F) → (⟨S50000x1, .f32⟩ : BufTy).Contents (Elt F) → (⟨S50000x1, .f32⟩ : BufTy).Contents (Elt F)),
    StableHlo.unary main_v28 main_v29 (broadcastInDim S50000x256 ![0, 1] bcast_S50000x1_S50000x256_0_1 : (⟨S50000x1, .f32⟩ : BufTy).Contents (Elt F) → (⟨S50000x256, .f32⟩ : BufTy).Contents (Elt F)),
    StableHlo.binary main_v22 main_v29 main_v30 (Host.divf : (⟨S50000x256, .f32⟩ : BufTy).Contents (Elt F) → (⟨S50000x256, .f32⟩ : BufTy).Contents (Elt F) → (⟨S50000x256, .f32⟩ : BufTy).Contents (Elt F)),
    StableHlo.binary main_v18 main_arg6 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v30 main_arg7 main_v32 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v31 main_v32 main_v33 (addf : (⟨S50000x256, .f32⟩ : BufTy).Contents (Elt F) → (⟨S50000x256, .f32⟩ : BufTy).Contents (Elt F) → (⟨S50000x256, .f32⟩ : BufTy).Contents (Elt F)),
    StableHlo.unary main_arg8 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S50000x256 ![0, 1] bcast_S1x256_S50000x256_0_1 : (⟨S1x256, .f32⟩ : BufTy).Contents (Elt F) → (⟨S50000x256, .f32⟩ : BufTy).Contents (Elt F)),
    StableHlo.binary main_v33 main_v35 main_v36 (addf : (⟨S50000x256, .f32⟩ : BufTy).Contents (Elt F) → (⟨S50000x256, .f32⟩ : BufTy).Contents (Elt F) → (⟨S50000x256, .f32⟩ : BufTy).Contents (Elt F)),
    StableHlo.nullary main_call3_cst (constant S_ .f32 0x00000000#32 : (⟨S_, .f32⟩ : BufTy).Contents (Elt F)),
    StableHlo.unary main_call3_cst main_call3_v0 ((broadcastInDim S50000x256 ![] bcast_S_S50000x256) : (⟨S_, .f32⟩ : BufTy).Contents (Elt F) → (⟨S50000x256, .f32⟩ : BufTy).Contents (Elt F)),
    StableHlo.binary main_v36 main_call3_v0 main_v37 (maximumf : (⟨S50000x256, .f32⟩ : BufTy).Contents (Elt F) → (⟨S50000x256, .f32⟩ : BufTy).Contents (Elt F) → (⟨S50000x256, .f32⟩ : BufTy).Contents (Elt F)) ]

/-- The last layer's operations, in order: the same stretch from the second layer's output, without the maximum. -/
abbrev ops2 : List (HloOp τ sig (Elt F)) :=
  [ StableHlo.nullary main_call4_c (constantI S_ 32 0#32 : (⟨S_, .i32⟩ : BufTy).Contents (Elt F)),
    StableHlo.unary main_call4_c main_call4_v0 ((broadcastInDim S800000 ![] bcast_S_S800000) : (⟨S_, .i32⟩ : BufTy).Contents (Elt F) → (⟨S800000, .i32⟩ : BufTy).Contents (Elt F)),
    StableHlo.binary main_arg1 main_call4_v0 main_call4_v1 ((cmpi .slt) : (⟨S800000, .i32⟩ : BufTy).Contents (Elt F) → (⟨S800000, .i32⟩ : BufTy).Contents (Elt F) → (⟨S800000, .i1⟩ : BufTy).Contents (Elt F)),
    StableHlo.nullary main_call4_c_0 (constantI S_ 32 50000#32 : (⟨S_, .i32⟩ : BufTy).Contents (Elt F)),
    StableHlo.unary main_call4_c_0 main_call4_v2 ((broadcastInDim S800000 ![] bcast_S_S800000) : (⟨S_, .i32⟩ : BufTy).Contents (Elt F) → (⟨S800000, .i32⟩ : BufTy).Contents (Elt F)),
    StableHlo.binary main_arg1 main_call4_v2 main_call4_v3 (addi : (⟨S800000, .i32⟩ : BufTy).Contents (Elt F) → (⟨S800000, .i32⟩ : BufTy).Contents (Elt F) → (⟨S800000, .i32⟩ : BufTy).Contents (Elt F)),
    StableHlo.ternary main_call4_v1 main_call4_v3 main_arg1 main_call4_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call4_v4 main_call4_v5 ((broadcastInDim S800000x1 ![0] bcast_S800000_S800000x1_0) : (⟨S800000, .i32⟩ : BufTy).Contents (Elt F) → (⟨S800000x1, .i32⟩ : BufTy).Contents (Elt F)),
    StableHlo.nullary main_call4_c_1 (constantI S1 32 49999#32 : (⟨S1, .i32⟩ : BufTy).Contents (Elt F)),
    StableHlo.nullary main_call4_c_2 (constantI S_ 32 0#32 : (⟨S_, .i32⟩ : BufTy).Contents (Elt F)),
    StableHlo.unary main_call4_c_2 main_call4_v6 ((broadcastInDim S800000x1 ![] bcast_S_S800000x1) : (⟨S_, .i32⟩ : BufTy).Contents (Elt F) → (⟨S800000x1, .i32⟩ : BufTy).Contents (Elt F)),
    StableHlo.binary main_call4_v5 main_call4_v6 main_call4_v7 ((cmpi .sge) : (⟨S800000x1, .i32⟩ : BufTy).Contents (Elt F) → (⟨S800000x1, .i32⟩ : BufTy).Contents (Elt F) → (⟨S800000x1, .i1⟩ : BufTy).Contents (Elt F)),
    StableHlo.unary main_call4_c_1 main_call4_v8 ((broadcastInDim S1x1 ![1] bcast_S1_S1x1_1) : (⟨S1, .i32⟩ : BufTy).Contents (Elt F) → (⟨S1x1, .i32⟩ : BufTy).Contents (Elt F)),
    StableHlo.unary main_call4_v8 main_call4_v9 ((broadcastInDim S800000x1 ![0, 1] bcast_S1x1_S800000x1_0_1) : (⟨S1x1, .i32⟩ : BufTy).Contents (Elt F) → (⟨S800000x1, .i32⟩ : BufTy).Contents (Elt F)),
    StableHlo.binary main_call4_v5 main_call4_v9 main_call4_v10 ((cmpi .sle) : (⟨S800000x1, .i32⟩ : BufTy).Contents (Elt F) → (⟨S800000x1, .i32⟩ : BufTy).Contents (Elt F) → (⟨S800000x1, .i1⟩ : BufTy).Contents (Elt F)),
    StableHlo.binary main_call4_v7 main_call4_v10 main_call4_v11 (andi : (⟨S800000x1, .i1⟩ : BufTy).Contents (Elt F) → (⟨S800000x1, .i1⟩ : BufTy).Contents (Elt F) → (⟨S800000x1, .i1⟩ : BufTy).Contents (Elt F)),
    StableHlo.nullary main_call4_c_3 (constantI S_ 1 1#1 : (⟨S_, .i1⟩ : BufTy).Contents (Elt F)),
    StableHlo.binary main_call4_v11 main_call4_c_3 main_call4_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_v37 main_call4_v5 main_call4_v13 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_call4_v12 main_call4_v14 ((broadcastInDim S800000x256 ![0] bcast_S800000_S800000x256_0) : (⟨S800000, .i1⟩ : BufTy).Contents (Elt F) → (⟨S800000x256, .i1⟩ : BufTy).Contents (Elt F)),
    StableHlo.nullary main_call4_cst (constant S_ .f32 0x7FC00000#32 : (⟨S_, .f32⟩ : BufTy).Contents (Elt F)),
    StableHlo.unary main_call4_cst main_call4_v15 ((broadcastInDim S800000x256 ![] bcast_S_S800000x256) : (⟨S_, .f32⟩ : BufTy).Contents (Elt F) → (⟨S800000x256, .f32⟩ : BufTy).Contents (Elt F)),
    StableHlo.ternary main_call4_v14 main_call4_v13 main_call4_v15 main_v38 (select : (⟨S800000x256, .i1⟩ : BufTy).Contents (Elt F) → (⟨S800000x256, .f32⟩ : BufTy).Contents (Elt F) → (⟨S800000x256, .f32⟩ : BufTy).Contents (Elt F) → (⟨S800000x256, .f32⟩ : BufTy).Contents (Elt F)),
    StableHlo.nullary main_cst_7 (constant S_ .f32 0x00000000#32),
    StableHlo.unary main_cst_7 main_v39 (broadcastInDim S50000x256 ![] bcast_S_S50000x256 : (⟨S_, .f32⟩ : BufTy).Contents (Elt F) → (⟨S50000x256, .f32⟩ : BufTy).Contents (Elt F)),
    StableHlo.unary main_arg2 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_8 (constant S_ .f32 0x3F800000#32),
    StableHlo.unary main_cst_8 main_v42 (broadcastInDim S800000x1 ![] bcast_S_S800000x1 : (⟨S_, .f32⟩ : BufTy).Contents (Elt F) → (⟨S800000x1, .f32⟩ : BufTy).Contents (Elt F)),
    StableHlo.nullary main_cst_9 (constant S_ .f32 0x00000000#32),
    StableHlo.unary main_cst_9 main_v43 (broadcastInDim S50000x1 ![] bcast_S_S50000x1 : (⟨S_, .f32⟩ : BufTy).Contents (Elt F) → (⟨S50000x1, .f32⟩ : BufTy).Contents (Elt F)),
    StableHlo.unary main_arg2 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_10 (constant S_ .f32 0x3F800000#32),
    StableHlo.unary main_cst_10 main_v46 (broadcastInDim S50000x1 ![] bcast_S_S50000x1 : (⟨S_, .f32⟩ : BufTy).Contents (Elt F) → (⟨S50000x1, .f32⟩ : BufTy).Contents (Elt F)),
    StableHlo.binary main_v45 main_v46 main_v47 (maximumf : (⟨S50000x1, .f32⟩ : BufTy).Contents (Elt F) → (⟨S50000x1, .f32⟩ : BufTy).Contents (Elt F) → (⟨S50000x1, .f32⟩ : BufTy).Contents (Elt F)),
    StableHlo.unary main_v47 main_v48 (broadcastInDim S50000x256 ![0, 1] bcast_S50000x1_S50000x256_0_1 : (⟨S50000x1, .f32⟩ : BufTy).Contents (Elt F) → (⟨S50000x256, .f32⟩ : BufTy).Contents (Elt F)),
    StableHlo.binary main_v41 main_v48 main_v49 (Host.divf : (⟨S50000x256, .f32⟩ : BufTy).Contents (Elt F) → (⟨S50000x256, .f32⟩ : BufTy).Contents (Elt F) → (⟨S50000x256, .f32⟩ : BufTy).Contents (Elt F)),
    StableHlo.binary main_v37 main_arg9 main_v50 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.binary main_v49 main_arg10 main_v51 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.binary main_v50 main_v51 main_v52 (addf : (⟨S50000x128, .f32⟩ : BufTy).Contents (Elt F) → (⟨S50000x128, .f32⟩ : BufTy).Contents (Elt F) → (⟨S50000x128, .f32⟩ : BufTy).Contents (Elt F)),
    StableHlo.unary main_arg11 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)) ]

/-- All of @main's operations: the three layers one after the other. -/
abbrev ops : List (HloOp τ sig (Elt F)) := ops0 ++ (ops1 ++ ops2)

attribute [local irreducible] Host.reduce in
set_option maxRecDepth 8192 in
set_option maxHeartbeats 4000000 in
/-- @main is that straight line: its two windows and the called functions unfolded, both sides are one chain of
    steps once sequencing is reassociated; a called function's operation is the plain operation at its buffers,
    the transport of its function along the buffers' types being the identity at these literal references. -/
theorem main_eq (c : Dev nD) : main (F := F) c = seq ops := by
  simp only [main, main_part0, main_part1, fn_take.body, fn_take_0.body, fn_relu.body, fn_where.body, ops, seq_append, seq,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- An operation's one written buffer is in the list. -/
local macro "one_w" : term =>
  `(by simp only [nullary_writes, unary_writes, binary_writes, ternary_writes, Finset.singleton_subset_iff, List.mem_toFinset]; exact List.mem_map_of_mem (by decide))

/-- The buffers that layer 1's operations write. -/
abbrev ops0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_cst, main_v1, main_v2, main_v3, main_cst_0, main_v4, main_cst_1, main_v5, main_v6, main_v7, main_cst_2, main_v8, main_v9, main_v10, main_v11, main_v12, main_v13, main_v14, main_v15, main_v16, main_v17, main_call1_cst, main_call1_v0, main_v18]
set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer that layer 1 does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

/-- The buffers that layer 2's operations write. -/
abbrev ops1_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v19, main_cst_3, main_v20, main_v21, main_v22, main_cst_4, main_v23, main_cst_5, main_v24, main_v25, main_v26, main_cst_6, main_v27, main_v28, main_v29, main_v30, main_v31, main_v32, main_v33, main_v34, main_v35, main_v36, main_call3_cst, main_call3_v0, main_v37]
set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer that layer 2 does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

/-- The buffers that layer 3's operations write. -/
abbrev ops2_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v38, main_cst_7, main_v39, main_v40, main_v41, main_cst_8, main_v42, main_cst_9, main_v43, main_v44, main_v45, main_cst_10, main_v46, main_v47, main_v48, main_v49, main_v50, main_v51, main_v52, main_v53, main_v54, main_v55]
set_option maxRecDepth 8192 in
set_option maxHeartbeats 4000000 in
theorem ops2_writes : (ops2 : List (HloOp τ sig (Elt F))).Forall fun op =>
    op.writes ⊆ (ops2_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩
/-- A buffer that layer 3 does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

/-- The contents after two stretches run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The first layer's stretch leaves its output buffer at `hidden1` of the six arrays it reads: each operation's
    result read off at its own buffer, every other buffer left as it was. -/
theorem seg0_v18 (V : Valuation τ sig (Elt F)) :
    after ops0 V (main_v18 : DevRef τ sig)
      = hidden1 (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [hidden1, relu256, dense0, meanAgg128, gatherRows128, degree, srcInRange, srcRow]
  after_results_simp

set_option maxRecDepth 8192 in
set_option maxHeartbeats 4000000 in
/-- The second layer's stretch leaves its output buffer at `hidden2` of the first layer's output and the five arrays it reads. -/
theorem seg1_v37 (V : Valuation τ sig (Elt F)) :
    after ops1 V (main_v37 : DevRef τ sig)
      = hidden2 (V (main_v18 : DevRef τ sig)) (V (main_arg1 : DevRef τ sig)) (V (main_arg2 : DevRef τ sig))
          (V (main_arg6 : DevRef τ sig)) (V (main_arg7 : DevRef τ sig)) (V (main_arg8 : DevRef τ sig)) := by
  simp only [hidden2, relu256, dense1, meanAgg256, gatherRows256, degree, srcInRange, srcRow]
  after_results_simp

set_option maxRecDepth 8192 in
set_option maxHeartbeats 4000000 in
/-- The last layer's stretch leaves the result buffer at `output` of the second layer's output and the five arrays it reads. -/
theorem seg2_v55 (V : Valuation τ sig (Elt F)) :
    after ops2 V (main_v55 : DevRef τ sig)
      = output (V (main_v37 : DevRef τ sig)) (V (main_arg1 : DevRef τ sig)) (V (main_arg2 : DevRef τ sig))
          (V (main_arg9 : DevRef τ sig)) (V (main_arg10 : DevRef τ sig)) (V (main_arg11 : DevRef τ sig)) := by
  simp only [output, dense2, meanAgg256, gatherRows256, degree, srcInRange, srcRow]
  after_results_simp

/-- The result buffer after all of @main: the three layers composed, each reading the arrays the earlier stretches left alone. -/
theorem out_eq (V : Valuation τ sig (Elt F)) :
    after ops V (main_v55 : DevRef τ sig)
      = net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  unfold net
  simp only [ops, after_app]
  rw [seg2_v55, seg1_v37, seg0_v18]
  rw [ops1_keep _ main_arg1 (by decide), ops1_keep _ main_arg2 (by decide), ops1_keep _ main_arg9 (by decide),
    ops1_keep _ main_arg10 (by decide), ops1_keep _ main_arg11 (by decide)]
  rw [ops0_keep _ main_arg1 (by decide), ops0_keep _ main_arg2 (by decide), ops0_keep _ main_arg6 (by decide),
    ops0_keep _ main_arg7 (by decide), ops0_keep _ main_arg8 (by decide), ops0_keep _ main_arg9 (by decide),
    ops0_keep _ main_arg10 (by decide), ops0_keep _ main_arg11 (by decide)]

/-- A buffer none of the three stretches writes keeps its contents through @main. -/
theorem arg_keep (V : Valuation τ sig (Elt F)) (r : Ref sig .tc) (h0 : r ∉ ops0_W) (h1 : r ∉ ops1_W) (h2 : r ∉ ops2_W) :
    after ops V (Proc.devRef .tc r) = V (Proc.devRef .tc r) := by
  simp only [ops, after_app]
  rw [ops2_keep _ r h2, ops1_keep _ r h1, ops0_keep _ r h0]

set_option maxRecDepth 8192 in
set_option maxHeartbeats 4000000 in
/-- On every device, for any float values, from any memory with zero counters: every weakly fair execution of
    @main terminates with the result buffer at the network of the twelve argument arrays and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v55) = net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v55).trans (out_eq _),
      (h c main_arg0).trans (arg_keep _ main_arg0 (by decide) (by decide) (by decide)),
      (h c main_arg1).trans (arg_keep _ main_arg1 (by decide) (by decide) (by decide)),
      (h c main_arg2).trans (arg_keep _ main_arg2 (by decide) (by decide) (by decide)),
      (h c main_arg3).trans (arg_keep _ main_arg3 (by decide) (by decide) (by decide)),
      (h c main_arg4).trans (arg_keep _ main_arg4 (by decide) (by decide) (by decide)),
      (h c main_arg5).trans (arg_keep _ main_arg5 (by decide) (by decide) (by decide)),
      (h c main_arg6).trans (arg_keep _ main_arg6 (by decide) (by decide) (by decide)),
      (h c main_arg7).trans (arg_keep _ main_arg7 (by decide) (by decide) (by decide)),
      (h c main_arg8).trans (arg_keep _ main_arg8 (by decide) (by decide) (by decide)),
      (h c main_arg9).trans (arg_keep _ main_arg9 (by decide) (by decide) (by decide)),
      (h c main_arg10).trans (arg_keep _ main_arg10 (by decide) (by decide) (by decide)),
      (h c main_arg11).trans (arg_keep _ main_arg11 (by decide) (by decide) (by decide))⟩)
    (run_seq scopedRefs_eq scopedSems_eq defs main (fun _ => ops) main_eq (fun _ => ops_sub) m ρ)

end Cert.Sage.Ref

end
-- ==== Proof.lean ====
/-
  The certificate: a three-layer mean-aggregation graph network, its dense layers as three pipelined kernel regions,
  against the same network written with whole-array matrix products.

  Both programs gather the node features along the edges, sum them into the destination nodes and divide by the degree
  with the SAME host operations; they differ only in the dense part of a layer. There the kernel takes 2000 rows at a
  time, converts its operands to a narrower float format (the identity on extended reals), multiplies into a zero
  accumulator, adds the bias row and, in the first two layers, takes the maximum with zero; the reference multiplies the
  whole arrays. Row by row these are the same sums, so at the ideal instance both programs end with ONE function
  `Cert.Sage.net` of the twelve arguments. No law beyond re-tiling the rows is used, so the precondition is never opened.
  The ideal pass rewrote nothing, so the idealization's claim is trivial. The three frames: the two kernel programs' are
  the generated frame certificates; the reference's is its run with the result dropped.
-/
import proofs.«142392_j26560077759064_1_alg».proof.Defs
import proofs.«142392_j26560077759064_1_alg».proof.Proof.Gen.Kernel
import proofs.«142392_j26560077759064_1_alg».proof.Proof.Gen.Kernel.Frame
import proofs.«142392_j26560077759064_1_alg».proof.Proof.Gen.KernelIdeal
import proofs.«142392_j26560077759064_1_alg».proof.Proof.Gen.KernelIdeal.Frame
import proofs.«142392_j26560077759064_1_alg».proof.Proof.Gen.ReferenceIdeal
import proofs.«142392_j26560077759064_1_alg».proof.Proof.Gen.Pre_finite_inputs
import proofs.«142392_j26560077759064_1_alg».proof.Proof.Spec
import proofs.«142392_j26560077759064_1_alg».proof.Proof.KerRun
import proofs.«142392_j26560077759064_1_alg».proof.Proof.KerValue
import proofs.«142392_j26560077759064_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.Sage.Ref.run m ρ)

/-- The ideal pass rewrote no operation: nothing to restate. -/
theorem preserves : Cert.preserves_Kernel_KernelIdeal := trivial

/-- At the ideal instance, from memories agreeing on the arguments, the kernel program ends with its result array at
    `net` of its arguments (its run, and the walk through its three regions) and the reference with its result at
    `net` of its own (its run): the same function of equal arguments. -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.Sage.result_eq m ρ c), (h c).2⟩)
      (Cert.KernelIdeal.RunValue.run_named (F := Ideal) m ρ)
  · refine (θ_run Cert.ReferenceIdeal.defs _ _).mono (fun r h c => ⟨?_, (h c).2⟩) (Cert.Sage.Ref.run m' ρ')
    obtain ⟨e0, e1, e2, e3, e4, e5, e6, e7, e8, e9, e10, e11⟩ := hagree c
    rw [(h c).1, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
